-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x64 .f32) (main_arg3 : FVec F S64 .f32) (main_arg4 : FVec F S64x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S3300000x64 : Shape := ⟨2, ![3300000, 64]⟩
abbrev S1x64 : Shape := ⟨2, ![1, 64]⟩
abbrev S100000x8 : Shape := ⟨2, ![100000, 8]⟩
abbrev S5000x8 : Shape := ⟨2, ![5000, 8]⟩
abbrev S3300000x8 : Shape := ⟨2, ![3300000, 8]⟩
abbrev S1x8 : Shape := ⟨2, ![1, 8]⟩

abbrev nBuf : Space → Nat
  | .hbm => 63
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S128x64, .bf16⟩
  | .hbm, ⟨29, _⟩ => ⟨S64x8, .bf16⟩
  | .hbm, ⟨30, _⟩ => ⟨S100000x64, .bf16⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000x64, .bf16⟩
  | .hbm, ⟨40, _⟩ => ⟨S3300000x64, .f32⟩
  | .hbm, ⟨41, _⟩ => ⟨S_, .f32⟩
  | .hbm, ⟨42, _⟩ => ⟨S100000x64, .f32⟩
  | .hbm, ⟨43, _⟩ => ⟨S3300000x1, .i32⟩
  | .hbm, ⟨44, _⟩ => ⟨S100000x64, .f32⟩
  | .hbm, ⟨45, _⟩ => ⟨S1x64, .f32⟩
  | .hbm, ⟨46, _⟩ => ⟨S100000x8, .bf16⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x8, .bf16⟩
  | .hbm, ⟨56, _⟩ => ⟨S3300000x8, .f32⟩
  | .hbm, ⟨57, _⟩ => ⟨S_, .f32⟩
  | .hbm, ⟨58, _⟩ => ⟨S100000x8, .f32⟩
  | .hbm, ⟨59, _⟩ => ⟨S3300000x1, .i32⟩
  | .hbm, ⟨60, _⟩ => ⟨S100000x8, .f32⟩
  | .hbm, ⟨61, _⟩ => ⟨S1x8, .f32⟩
  | .hbm, ⟨62, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S128x64, .bf16⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S5000x1, .f32⟩
  | .local _ .vmem, ⟨11, _⟩ => ⟨S5000x1, .f32⟩
  | .local _ .vmem, ⟨12, _⟩ => ⟨S64x8, .bf16⟩
  | .local _ .vmem, ⟨13, _⟩ => ⟨S5000x8, .bf16⟩
  | .local _ .vmem, ⟨14, _⟩ => ⟨S5000x8, .bf16⟩
  | .local _ .vmem, ⟨15, _⟩ => ⟨S5000x8, .f32⟩
  | .local _ .vmem, ⟨16, _⟩ => ⟨S5000x8, .f32⟩
  | .local _ .vmem, ⟨17, _⟩ => ⟨S5000x1, .f32⟩
  | .local _ .vmem, ⟨18, _⟩ => ⟨S5000x1, .f32⟩
  | .local _ .vmem, ⟨19, _⟩ => ⟨S1x8, .f32⟩
  | .local _ .vmem, ⟨20, _⟩ => ⟨S5000x8, .f32⟩
  | .local _ .vmem, ⟨21, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x8 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x8 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x8_S64x8_0_0 : ∀ a, (![0, 0] : Fin 2 → Nat) a + S64x8.size a ≤ S64x8.size a
  h_S64x8 : 0 < S64x8.numel
  shapeCasts_S64x8_S64x8 : S64x8.ShapeCasts S64x8
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  packedbf16_S5000x8_S5000x8_0_0 : (Rect.unit (s := S5000x8) ![0, 0] S5000x8.size inb_S5000x8_S5000x8_0_0).PackedRows (EltTy.packing .bf16)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  scatter_S100000_S3300000x1_S3300000_n_0_0_1_wf : ScatterDims.WF S100000 S3300000x1 S3300000 [] [0] [0] 1
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x8_S5000x8_1_0_0_1_n_n_wf : DotDims.WF S5000x64 S64x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x8.size a ≤ S64x8.size a
  hwx1_3 : ∀ i : grid1.Coords, EltTy.bits .bf16 = 32 ∨ (Rect.block (s := S64x8) S64x8.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S100000x8.size a
  hwx1_4 : ∀ i : grid1.Coords, EltTy.bits .bf16 = 32 ∨ (Rect.block (s := S100000x8) S5000x8.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S100000x8.size a
  hwx2_0 : ∀ i : grid2.Coords, EltTy.bits .f32 = 32 ∨ (Rect.block (s := S100000x8) S5000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x8.size a ≤ S100000x8.size a
  hwx2_3 : ∀ i : grid2.Coords, EltTy.bits .f32 = 32 ∨ (Rect.block (s := S100000x8) S5000x8.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S64x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x8 : Shape := ⟨2, ![64, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x64 : Shape := ⟨2, ![100000, 64]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x8 : Shape := ⟨2, ![100000, 8]⟩
abbrev S3300000x8 : Shape := ⟨2, ![3300000, 8]⟩
abbrev S1x8 : Shape := ⟨2, ![1, 8]⟩

abbrev nBuf : Space → Nat
  | .hbm => 127
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x64, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x8, .f32⟩
  | .hbm, ⟨75, _⟩ => ⟨S_, .f32⟩
  | .hbm, ⟨76, _⟩ => ⟨S3300000, .f32⟩
  | .hbm, ⟨77, _⟩ => ⟨S_, .f32⟩
  | .hbm, ⟨78, _⟩ => ⟨S100000, .f32⟩
  | .hbm, ⟨79, _⟩ => ⟨S3300000x1, .i32⟩
  | .hbm, ⟨80, _⟩ => ⟨S100000, .f32⟩
  | .hbm, ⟨81, _⟩ => ⟨S_, .f32⟩
  | .hbm, ⟨82, _⟩ => ⟨S100000, .f32⟩
  | .hbm, ⟨83, _⟩ => ⟨S100000, .i1⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000, .f32⟩
  | .hbm, ⟨98, _⟩ => ⟨S_, .i32⟩
  | .hbm, ⟨99, _⟩ => ⟨S3300000, .i32⟩
  | .hbm, ⟨100, _⟩ => ⟨S3300000, .i1⟩
  | .hbm, ⟨101, _⟩ => ⟨S_, .i32⟩
  | .hbm, ⟨102, _⟩ => ⟨S3300000, .i32⟩
  | .hbm, ⟨103, _⟩ => ⟨S3300000, .i32⟩
  | .hbm, ⟨104, _⟩ => ⟨S3300000, .i32⟩
  | .hbm, ⟨105, _⟩ => ⟨S3300000x1, .i32⟩
  | .hbm, ⟨106, _⟩ => ⟨S3300000, .f32⟩
  | .hbm, ⟨107, _⟩ => ⟨S3300000, .f32⟩
  | .hbm, ⟨108, _⟩ => ⟨S_, .i32⟩
  | .hbm, ⟨109, _⟩ => ⟨S3300000, .i32⟩
  | .hbm, ⟨110, _⟩ => ⟨S3300000, .i1⟩
  | .hbm, ⟨111, _⟩ => ⟨S_, .i32⟩
  | .hbm, ⟨112, _⟩ => ⟨S3300000, .i32⟩
  | .hbm, ⟨113, _⟩ => ⟨S3300000, .i32⟩
  | .hbm, ⟨114, _⟩ => ⟨S3300000, .i32⟩
  | .hbm, ⟨115, _⟩ => ⟨S3300000x1, .i32⟩
  | .hbm, ⟨116, _⟩ => ⟨S3300000x8, .f32⟩
  | .hbm, ⟨117, _⟩ => ⟨S3300000x1, .f32⟩
  | .hbm, ⟨118, _⟩ => ⟨S3300000x8, .f32⟩
  | .hbm, ⟨119, _⟩ => ⟨S3300000x8, .f32⟩
  | .hbm, ⟨120, _⟩ => ⟨S_, .f32⟩
  | .hbm, ⟨121, _⟩ => ⟨S100000x8, .f32⟩
  | .hbm, ⟨122, _⟩ => ⟨S3300000x1, .i32⟩
  | .hbm, ⟨123, _⟩ => ⟨S100000x8, .f32⟩
  | .hbm, ⟨124, _⟩ => ⟨S1x8, .f32⟩
  | .hbm, ⟨125, _⟩ => ⟨S100000x8, .f32⟩
  | .hbm, ⟨126, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_14 : Ref sig .tc := ⟨.hbm, 85, rfl⟩
abbrev main_call1_v0 : Ref sig .tc := ⟨.hbm, 86, rfl⟩
abbrev main_call1_v1 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_17 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_19 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x8_S100000x8_1_0_0_1_n_n_wf : DotDims.WF S100000x64 S64x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.Spec.lean ====
/-
  The function both programs compute, on the extended reals, written once over literal shapes.

  A graph with 100000 nodes and 3200000 listed edges, to which every node's self loop is appended
  (3300000 edges in all). `src e` / `dst e` are the two rows of the edge list followed by 0 … 99999.
  `deg n` counts the edges whose destination is `n` (an out-of-range destination is dropped), and
  `dis n = deg n ^ (-1/2)` where the degree is positive, `0` elsewhere.

  One propagation step over features `H : [100000, m]`:
      prop H b (p, q) = (∑ over the edges e landing on row p,  H (s e, q) · dis (s e)) · dis p + b q
  where `s e` is the source of `e`, a negative value wrapped once and the result clamped into the
  node range (what a gather does), and "landing on row p" is the scatter's own result index
  (signed, not clamped, out-of-range updates dropped).

  The network is two such steps with a dense layer in front of each and a logistic in between:
      out = prop ((logistic (prop (x · W1) b1)) · W2) b2.
-/
import Idealize.ShloMosaic.PureOps
import Idealize.ShloMosaic.PureOps.Ideal
import Idealize.ShloMosaic.Lib.ValueIdx

noncomputable section

open scoped BigOperators

namespace Cert.Spec

open Idealize.ShloMosaic Idealize.ShloMosaic.ValueIdx

/-! ## Shapes -/

abbrev S_ : Shape := ⟨0, ![]⟩
abbrev SN : Shape := ⟨1, ![100000]⟩
abbrev S2xE : Shape := ⟨2, ![2, 3200000]⟩
abbrev S1xE : Shape := ⟨2, ![1, 3200000]⟩
abbrev SE : Shape := ⟨1, ![3200000]⟩
abbrev ST : Shape := ⟨1, ![3300000]⟩
abbrev STx1 : Shape := ⟨2, ![3300000, 1]⟩
abbrev SNx128 : Shape := ⟨2, ![100000, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev SNx64 : Shape := ⟨2, ![100000, 64]⟩
abbrev SNx8 : Shape := ⟨2, ![100000, 8]⟩
abbrev STx64 : Shape := ⟨2, ![3300000, 64]⟩
abbrev STx8 : Shape := ⟨2, ![3300000, 8]⟩

/-! ## The edge lists -/

theorem cat_SE_SN : Shape.Concatenates [SE, SN] ST 0 := by decide

/-- Row `r` of the edge list followed by the self loops `0 … 99999`. -/
def edgeRow (r : Nat) (h : S2xE.Slices ![r, 0] S1xE) (ei : IVec S2xE 32) : IVec ST 32 :=
  concatenate ST 0 [⟨SE, shapeCast SE (extractStridedSlice S1xE ![r, 0] ei h) (by decide)⟩, ⟨SN, iotaInDim SN 32 0⟩] cat_SE_SN

/-- The sources. -/
def src (ei : IVec S2xE 32) : IVec ST 32 := edgeRow 0 (by decide) ei
/-- The destinations. -/
def dst (ei : IVec S2xE 32) : IVec ST 32 := edgeRow 1 (by decide) ei

/-- A list of node numbers as a column of start indices. -/
def col (v : IVec ST 32) : IVec STx1 32 := broadcastInDim STx1 ![0] (by decide) v

/-- A negative node number wrapped once (numpy's indexing convention), anything else left alone. -/
def wrap (v : IVec ST 32) : IVec ST 32 :=
  select (cmpi .slt v (broadcastInDim ST ![] (by decide) (constantI S_ 32 0#32)))
    (addi v (broadcastInDim ST ![] (by decide) (constantI S_ 32 100000#32))) v

/-! ## Dimension numbers -/

/-- Scatter of one value per edge into a vector over the nodes. -/
def scat1 : ScatterDims SN STx1 ST where
  updateWindowDims := []
  insertedWindowDims := [0]
  scatterDimsToOperandDims := [0]
  indexVectorDim := 1
/-- Gather of one node's value per edge. -/
def gath1 : GatherDims SN STx1 ST where
  offsetDims := []
  collapsedSliceDims := [0]
  operandBatchingDims := []
  startIndicesBatchingDims := []
  startIndexMap := [0]
  indexVectorDim := 1
  sliceSizes := ![1]
/-- Scatter of one row of `m` features per edge into the node rows. -/
def scatRows (m : Nat) (wf : ScatterDims.WF ⟨2, ![100000, m]⟩ STx1 ⟨2, ![3300000, m]⟩ [1] [0] [0] 1) :
    ScatterDims ⟨2, ![100000, m]⟩ STx1 ⟨2, ![3300000, m]⟩ where
  updateWindowDims := [1]
  insertedWindowDims := [0]
  scatterDimsToOperandDims := [0]
  indexVectorDim := 1
  wf := wf
/-- Gather of one node row of `m` features per edge. -/
def gathRows (m : Nat) (wf : GatherDims.WF ⟨2, ![100000, m]⟩ STx1 ⟨2, ![3300000, m]⟩ [1] [0] [] [0] [] 1 ![1, m]) :
    GatherDims ⟨2, ![100000, m]⟩ STx1 ⟨2, ![3300000, m]⟩ where
  offsetDims := [1]
  collapsedSliceDims := [0]
  operandBatchingDims := []
  startIndicesBatchingDims := []
  startIndexMap := [0]
  indexVectorDim := 1
  sliceSizes := ![1, m]
  wf := wf

def scat64 : ScatterDims SNx64 STx1 STx64 := scatRows 64 (by decide)
def scat8 : ScatterDims SNx8 STx1 STx8 := scatRows 8 (by decide)
def gath64 : GatherDims SNx64 STx1 STx64 := gathRows 64 (by decide)
def gath8 : GatherDims SNx8 STx1 STx8 := gathRows 8 (by decide)

/-! ## Degrees and the normalisation -/

/-- In-degree: one per edge, added at its destination. -/
def deg (ei : IVec S2xE 32) : FVec Ideal SN .f32 :=
  Host.scatterAdd scat1 (broadcastInDim SN ![] (by decide) (constant (F := Ideal) S_ .f32 0x00000000#32)) (col (dst ei))
    (broadcastInDim ST ![] (by decide) (constant (F := Ideal) S_ .f32 0x3F800000#32))

/-- `deg ^ (-1/2)` where the degree is positive, zero elsewhere. -/
def dis (ei : IVec S2xE 32) : FVec Ideal SN .f32 :=
  select (cmpf .ogt (deg ei) (broadcastInDim SN ![] (by decide) (constant (F := Ideal) S_ .f32 0x00000000#32)))
    (Host.rsqrt (deg ei))
    (broadcastInDim SN ![] (by decide) (id (constant (F := Ideal) S_ .f32 0x00000000#32)))

/-! ## One propagation step and the network -/

/-- The row of the operand that edge-feature index `j` reads: its source, wrapped and clamped. -/
def from64 (ei : IVec S2xE 32) (j : STx64.Idx) : SNx64.Idx := gath64.operandIdx j (col (wrap (src ei)))
def from8 (ei : IVec S2xE 32) (j : STx8.Idx) : SNx8.Idx := gath8.operandIdx j (col (wrap (src ei)))
/-- The element of the result that edge-feature index `j` is added to, if any. -/
def to64 (ei : IVec S2xE 32) (j : STx64.Idx) : Option SNx64.Idx := scat64.resultIdx? j (col (dst ei))
def to8 (ei : IVec S2xE 32) (j : STx8.Idx) : Option SNx8.Idx := scat8.resultIdx? j (col (dst ei))

/-- A dense layer: rows of `A` against columns of `W`. -/
def lin {n k m : Nat} (A : Fin n → Fin k → EReal) (W : (⟨2, ![k, m]⟩ : Shape).Idx → EReal) (p : Fin n) (q : Fin m) : EReal :=
  ∑ j : Fin k, A p j * W (ix2 j q)

/-- One propagation step over `[100000, 64]` features. -/
def prop64 (ei : IVec S2xE 32) (H : Fin 100000 → Fin 64 → EReal) (b : S64.Idx → EReal) (p : Fin 100000) (q : Fin 64) : EReal :=
  (∑ j ∈ Finset.univ.filter (fun j => to64 ei j = some (ix2 p q)),
      H (from64 ei j 0) (from64 ei j 1) * dis ei (ix1 (from64 ei j 0))) * dis ei (ix1 p) + b (ix1 q)

/-- One propagation step over `[100000, 8]` features. -/
def prop8 (ei : IVec S2xE 32) (H : Fin 100000 → Fin 8 → EReal) (b : S8.Idx → EReal) (p : Fin 100000) (q : Fin 8) : EReal :=
  (∑ j ∈ Finset.univ.filter (fun j => to8 ei j = some (ix2 p q)),
      H (from8 ei j 0) (from8 ei j 1) * dis ei (ix1 (from8 ei j 0))) * dis ei (ix1 p) + b (ix1 q)

/-- The same step with the two scalings multiplied PER EDGE — the source's `dis` times the destination's, each read
    through a gather of the `dis` vector at the edge's wrapped and clamped node number — and the sum started from a zero
    word: the form a per-edge normalisation takes. -/
def edge64 (ei : IVec S2xE 32) (H : Fin 100000 → Fin 64 → EReal) (b : S64.Idx → EReal) (p : Fin 100000) (q : Fin 64) : EReal :=
  (Ideal.ofBits .f32 0x00000000#32 + ∑ j ∈ Finset.univ.filter (fun j => to64 ei j = some (ix2 p q)),
      H (from64 ei j 0) (from64 ei j 1) *
        (dis ei (gath1.operandIdx (ix1 (j 0) : ST.Idx) (col (wrap (src ei))))
          * dis ei (gath1.operandIdx (ix1 (j 0) : ST.Idx) (col (wrap (dst ei)))))) + b (ix1 q)

def edge8 (ei : IVec S2xE 32) (H : Fin 100000 → Fin 8 → EReal) (b : S8.Idx → EReal) (p : Fin 100000) (q : Fin 8) : EReal :=
  (Ideal.ofBits .f32 0x00000000#32 + ∑ j ∈ Finset.univ.filter (fun j => to8 ei j = some (ix2 p q)),
      H (from8 ei j 0) (from8 ei j 1) *
        (dis ei (gath1.operandIdx (ix1 (j 0) : ST.Idx) (col (wrap (src ei))))
          * dis ei (gath1.operandIdx (ix1 (j 0) : ST.Idx) (col (wrap (dst ei)))))) + b (ix1 q)

/-- The hidden layer before its logistic. -/
def hidden (x : SNx128.Idx → EReal) (ei : IVec S2xE 32) (W1 : S128x64.Idx → EReal) (b1 : S64.Idx → EReal) :
    Fin 100000 → Fin 64 → EReal :=
  prop64 ei (lin (fun p k => x (ix2 p k)) W1) b1

/-- The network's result. -/
def out (x : SNx128.Idx → EReal) (ei : IVec S2xE 32) (W1 : S128x64.Idx → EReal) (b1 : S64.Idx → EReal)
    (W2 : S64x8.Idx → EReal) (b2 : S8.Idx → EReal) : SNx8.Idx → EReal :=
  fun i => prop8 ei (lin (fun p k => Ideal.logistic (hidden x ei W1 b1 p k)) W2) b2 (i 0) (i 1)

/-- The network with both propagation steps in the per-edge form. -/
def outEdge (x : SNx128.Idx → EReal) (ei : IVec S2xE 32) (W1 : S128x64.Idx → EReal) (b1 : S64.Idx → EReal)
    (W2 : S64x8.Idx → EReal) (b2 : S8.Idx → EReal) : SNx8.Idx → EReal :=
  fun i => edge8 ei (lin (fun p k => Ideal.logistic (edge64 ei (lin (fun p k => x (ix2 p k)) W1) b1 p k)) W2) b2 (i 0) (i 1)

end Cert.Spec

end
-- ==== Proof.EdgeLaw.lean ====
/-
  Scaling per edge against scaling per node.

  One propagation step adds, into row \`p\`, the feature rows of the sources of the edges that land on \`p\`,
  each scaled by the normalisation factor of its source and by that of its destination. Written per edge,
  both factors sit inside the sum and each is read through a gather of the factor vector at the edge's node
  number. Written per node, the destination's factor is taken once, outside the sum. The two agree because

  * the row a feature gather reads for an edge is the element a vector gather reads at the same column of
    start indices (both are the start index read signed and clamped into the node range);
  * an edge whose update lands on row \`p\` has destination exactly \`p\`: a scatter reads its index signed and
    drops what falls outside, so the landing row is the index itself, non-negative and below the node count,
    and wrapping a negative number once and clamping leave such an index alone;
  * the normalisation factor is a non-negative REAL number (\`deg ^ (-1/2)\` of a positive, possibly infinite,
    degree, or zero), and multiplication by a non-negative real distributes over every sum of extended
    reals, also one that holds both infinities. (Multiplication by an arbitrary extended real does not.)
-/
import proofs.«181691_j22565758173932_2_alg».proof.Proof.Spec
import Idealize.ShloMosaic.PureOps.Ideal.Laws
import Mathlib.Data.EReal.Operations

noncomputable section

open scoped BigOperators

namespace Cert.Spec

open Idealize.ShloMosaic Idealize.ShloMosaic.ValueIdx

/-! ## The algebraic law -/

/-- A non-negative real factor moves out of a sum of products of extended reals. -/
theorem sum_mul_mul_coe {ι : Type*} (S : Finset ι) (y s : ι → EReal) (r : ℝ) (hr : 0 ≤ r) :
    ∑ j ∈ S, y j * (s j * (r : EReal)) = (∑ j ∈ S, y j * s j) * (r : EReal) := by
  classical
  induction S using Finset.induction_on with
  | empty => simp
  | insert a S ha ih =>
    rw [Finset.sum_insert ha, Finset.sum_insert ha, ih,
      EReal.right_distrib_of_nonneg_of_ne_top (EReal.coe_nonneg.mpr hr) (EReal.coe_ne_top r), mul_assoc]

/-! ## The normalisation factor is a non-negative real -/

/-- The ideal comparison "greater than" answers \`1\` exactly when its first operand is the greater. -/
theorem cmp_ogt_eq_one {x y : EReal} (h : Ideal.cmp .ogt x y = 1#1) : y < x := by
  by_contra hn
  simp [Ideal.cmp, hn] at h

/-- The reciprocal square root of a positive extended real is a non-negative real (\`0\` at \`+∞\`). -/
theorem rsqrt_nonneg_real {d : EReal} (hd : 0 < d) : ∃ r : ℝ, 0 ≤ r ∧ Ideal.rsqrt d = (r : EReal) := by
  induction d using EReal.rec with
  | bot => exact absurd hd (by simp)
  | top => exact ⟨0, le_refl _, by simp⟩
  | coe x =>
    have hx : 0 < x := by exact_mod_cast hd
    refine ⟨(Real.sqrt x)⁻¹, inv_nonneg.mpr (Real.sqrt_nonneg x), ?_⟩
    rw [Ideal.rsqrt_coe, if_neg (not_lt.mpr hx.le), if_neg hx.ne']

/-- Where the ideal comparison "greater than" against a zero vector answers \`1\`, the element is positive. -/
theorem pos_of_cmpf_ogt {s : Shape} (d z : FVec Ideal s .f32) (n : s.Idx) (hz : z n = 0)
    (h : cmpf .ogt d z n = 1#1) : 0 < d n := by
  have h' := cmp_ogt_eq_one (x := d n) (y := z n) h
  rwa [hz] at h'

/-- "The reciprocal square root where the condition holds, \`z\` elsewhere" is a non-negative real at every index
    where the condition forces a positive operand and \`z\` is zero. -/
theorem select_rsqrt_nonneg_real {s : Shape} (c : IVec s 1) (d z : FVec Ideal s .f32) (n : s.Idx)
    (hc : c n = 1#1 → 0 < d n) (hz : z n = 0) :
    ∃ r : ℝ, 0 ≤ r ∧ select c (Host.rsqrt d) z n = (r : EReal) := by
  rw [select_apply]
  by_cases h : c n = 1#1
  · rw [h, select_one]
    exact rsqrt_nonneg_real (hc h)
  · rw [eq_zero_of_ne_one h, select_zero, hz]
    exact ⟨0, le_refl _, EReal.coe_zero.symm⟩

/-- Every node's normalisation factor is a non-negative real, whatever its degree. -/
theorem dis_nonneg_real (ei : IVec S2xE 32) (n : SN.Idx) : ∃ r : ℝ, 0 ≤ r ∧ dis ei n = (r : EReal) := by
  unfold dis
  exact select_rsqrt_nonneg_real _ _ _ n
    (pos_of_cmpf_ogt _ _ n Ideal.ofBits_zero_f32) Ideal.ofBits_zero_f32

/-! ## Row gathers and row scatters over one column of node numbers

Facts about the dimension numbers of Spec.lean for ANY feature width \`m\`: which operand row a row gather reads,
which element a vector gather reads, and on which row a row scatter lands. -/

section Rows

/-- A column of node numbers read at row \`a\` is the list read at \`a\`. -/
theorem col_apply (v : IVec ST 32) (i : STx1.Idx) : col v i = v (ix1 (i 0)) := by
  unfold col broadcastInDim
  refine congrArg v (funext fun a => ?_)
  match a with
  | ⟨0, _⟩ => exact Fin.ext rfl

/-- THE VECTOR GATHER'S INDEX: the element of a vector over the nodes that edge \`t\` reads is the start index
    in row \`t\` of the column, read signed and clamped into \`[0, 99999]\`. -/
theorem gath1_val (idx : IVec STx1 32) (t : ST.Idx) :
    (gath1.operandIdx t idx 0).val = min (idx (ix2 (t 0) 0)).toInt.toNat 99999 := by
  show gath1.start t idx 0 + gath1.batchCoord t 0 + gath1.offCoord t 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gath1.startIndexMap from List.mem_singleton.mpr rfl)]
  have hsi : gath1.siIdx t ⟨List.idxOf (0 : Fin 1) gath1.startIndexMap,
      List.idxOf_lt_length_iff.2 (List.mem_singleton.mpr rfl)⟩ = ix2 (t 0) 0 := by
    funext b; refine Fin.ext ?_
    match b with
    | ⟨0, _⟩ => rfl
    | ⟨1, _⟩ => rfl
  rw [hsi]
  rfl

/-- THE ROW GATHER'S ROW: the operand row that element \`j\` of a gather of feature rows reads is the start index
    in row \`j 0\` of the column, read signed and clamped into \`[0, 99999]\`, whatever the feature width. -/
theorem gathRows_row_val (m : Nat) (wf : GatherDims.WF ⟨2, ![100000, m]⟩ STx1 ⟨2, ![3300000, m]⟩ [1] [0] [] [0] [] 1 ![1, m])
    (idx : IVec STx1 32) (j : (⟨2, ![3300000, m]⟩ : Shape).Idx) :
    ((gathRows m wf).operandIdx j idx 0).val = min (idx (ix2 (j 0) 0)).toInt.toNat 99999 := by
  show (gathRows m wf).start j idx 0 + (gathRows m wf).batchCoord j 0 + (gathRows m wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gathRows m wf).startIndexMap from List.mem_singleton.mpr rfl)]
  have hsi : (gathRows m wf).siIdx j ⟨List.idxOf (0 : Fin 2) (gathRows m wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The source row of a feature gather is the vector gather's index: over the same column of start indices, the
    row that element \`j\` of the row gather reads is the element that edge \`j 0\` of the vector gather reads. -/
theorem gath1_eq_gathRows_row (m : Nat) (wf : GatherDims.WF ⟨2, ![100000, m]⟩ STx1 ⟨2, ![3300000, m]⟩ [1] [0] [] [0] [] 1 ![1, m])
    (idx : IVec STx1 32) (j : (⟨2, ![3300000, m]⟩ : Shape).Idx) :
    gath1.operandIdx (ix1 (j 0) : ST.Idx) idx = (ix1 ((gathRows m wf).operandIdx j idx 0) : SN.Idx) := by
  funext a
  match a with
  | ⟨0, _⟩ => exact Fin.ext ((gath1_val idx (ix1 (j 0))).trans (gathRows_row_val m wf idx j).symm)

end Rows

section Landing

/-- Wrapping leaves a non-negative node number alone. -/
theorem wrap_of_nonneg (v : IVec ST 32) (t : ST.Idx) (h : 0 ≤ (v t).toInt) : wrap v t = v t := by
  unfold wrap
  rw [select_apply]
  have hb : cmpi .slt v (broadcastInDim ST ![] (by decide) (constantI S_ 32 0#32)) t = 0#1 := by
    show IntOp.cmpi .slt (v t) 0#32 = 0#1
    have hn : (v t).slt 0#32 = false := by
      rw [BitVec.slt_eq_decide]
      exact decide_eq_false (by rw [BitVec.toInt_zero]; omega)
    unfold IntOp.cmpi
    show BitVec.ofBool ((v t).slt 0#32) = 0#1
    rw [hn]; rfl
  rw [hb, select_zero]

/-- THE ROW SCATTER'S ROW: when element \`j\` of a scatter of feature rows lands at \`r\`, the scatter index in row \`j 0\`
    of the column, read signed, IS the row \`r 0\` (a scatter does not clamp: it drops what leaves the operand). -/
theorem scatRows_row (m : Nat) (wf : ScatterDims.WF ⟨2, ![100000, m]⟩ STx1 ⟨2, ![3300000, m]⟩ [1] [0] [0] 1)
    (idx : IVec STx1 32) (j : (⟨2, ![3300000, m]⟩ : Shape).Idx) (r : (⟨2, ![100000, m]⟩ : Shape).Idx)
    (h : (scatRows m wf).resultIdx? j idx = some r) :
    (idx (ix2 (j 0) 0)).toInt = ((r 0).val : Int) := by
  have hw : (scatRows m wf).window j 0 = 0 := by
    unfold ScatterDims.window
    rw [dif_neg (by simp [ScatterDims.sKept, Shape.kept, List.mem_filter, List.mem_finRange, scatRows])]
  have hs : (scatRows m wf).start j idx 0 = (idx (ix2 (j 0) 0)).toInt := by
    unfold ScatterDims.start
    rw [dif_pos (show (0 : Fin 2) ∈ (scatRows m wf).scatterDimsToOperandDims from List.mem_singleton.mpr rfl)]
    have hsi : (scatRows m wf).siIdx j ⟨List.idxOf (0 : Fin 2) (scatRows m wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  unfold ScatterDims.resultIdx? at h
  split at h
  · rename_i hin
    have h0 := hin 0
    rw [hw, hs] at h0
    have hr : ((r 0).val : Int) = (((scatRows m wf).start j idx 0 + ((scatRows m wf).window j 0 : Nat)).toNat : Nat) := by
      rw [← Option.some.inj h]
    rw [hr, hw, hs]
    omega
  · exact absurd h (by simp)

/-- An edge that lands on row \`p\` has destination \`p\`: when element \`j\` of a row scatter over the column of a list \`v\` of
    node numbers lands at \`r\`, the vector gather over the column of the WRAPPED list reads, for edge \`j 0\`, element \`r 0\`. -/
theorem gath1_of_scatRows (m : Nat) (wf : ScatterDims.WF ⟨2, ![100000, m]⟩ STx1 ⟨2, ![3300000, m]⟩ [1] [0] [0] 1)
    (v : IVec ST 32) (j : (⟨2, ![3300000, m]⟩ : Shape).Idx) (r : (⟨2, ![100000, m]⟩ : Shape).Idx)
    (h : (scatRows m wf).resultIdx? j (col v) = some r) :
    gath1.operandIdx (ix1 (j 0) : ST.Idx) (col (wrap v)) = (ix1 (r 0) : SN.Idx) := by
  have hv : (v (ix1 (j 0))).toInt = ((r 0).val : Int) := by
    have := scatRows_row m wf (col v) j r h
    rwa [col_apply] at this
  have hlt : (r 0).val < 100000 := (r 0).isLt
  funext a
  match a with
  | ⟨0, _⟩ =>
    refine Fin.ext ?_
    refine (gath1_val _ _).trans ?_
    rw [col_apply, wrap_of_nonneg v _ (by show 0 ≤ (v (ix1 (j 0))).toInt; omega)]
    show min (v (ix1 (j 0))).toInt.toNat 99999 = (r 0).val
    omega

end Landing

/-! ## The two forms of a propagation step agree -/

/-- The per-edge form of the step over \`[100000, 64]\` features is the per-node form. -/
theorem edge64_eq (ei : IVec S2xE 32) (H : Fin 100000 → Fin 64 → EReal) (b : S64.Idx → EReal) (p : Fin 100000) (q : Fin 64) :
    edge64 ei H b p q = prop64 ei H b p q := by
  obtain ⟨r, hr, hdis⟩ := dis_nonneg_real ei (ix1 p)
  have key := sum_mul_mul_coe (Finset.univ.filter (fun j => to64 ei j = some (ix2 p q)))
    (fun j => H (from64 ei j 0) (from64 ei j 1)) (fun j => dis ei (ix1 (from64 ei j 0))) r hr
  unfold edge64 prop64
  rw [Ideal.ofBits_zero_f32, zero_add, hdis]
  refine Eq.trans ?_ (congrArg (· + b (ix1 q)) key)
  refine congrArg (· + b (ix1 q)) (Finset.sum_congr rfl fun j hj => ?_)
  have hto : to64 ei j = some (ix2 p q) := (Finset.mem_filter.1 hj).2
  have e1 : gath1.operandIdx (ix1 (j 0) : ST.Idx) (col (wrap (src ei))) = ix1 (from64 ei j 0) :=
    gath1_eq_gathRows_row 64 _ _ j
  have e2 : gath1.operandIdx (ix1 (j 0) : ST.Idx) (col (wrap (dst ei))) = ix1 p :=
    gath1_of_scatRows 64 _ (dst ei) j (ix2 p q) hto
  rw [e1, e2, hdis]
  rfl

/-- The per-edge form of the step over \`[100000, 8]\` features is the per-node form. -/
theorem edge8_eq (ei : IVec S2xE 32) (H : Fin 100000 → Fin 8 → EReal) (b : S8.Idx → EReal) (p : Fin 100000) (q : Fin 8) :
    edge8 ei H b p q = prop8 ei H b p q := by
  obtain ⟨r, hr, hdis⟩ := dis_nonneg_real ei (ix1 p)
  have key := sum_mul_mul_coe (Finset.univ.filter (fun j => to8 ei j = some (ix2 p q)))
    (fun j => H (from8 ei j 0) (from8 ei j 1)) (fun j => dis ei (ix1 (from8 ei j 0))) r hr
  unfold edge8 prop8
  rw [Ideal.ofBits_zero_f32, zero_add, hdis]
  refine Eq.trans ?_ (congrArg (· + b (ix1 q)) key)
  refine congrArg (· + b (ix1 q)) (Finset.sum_congr rfl fun j hj => ?_)
  have hto : to8 ei j = some (ix2 p q) := (Finset.mem_filter.1 hj).2
  have e1 : gath1.operandIdx (ix1 (j 0) : ST.Idx) (col (wrap (src ei))) = ix1 (from8 ei j 0) :=
    gath1_eq_gathRows_row 8 _ _ j
  have e2 : gath1.operandIdx (ix1 (j 0) : ST.Idx) (col (wrap (dst ei))) = ix1 p :=
    gath1_of_scatRows 8 _ (dst ei) j (ix2 p q) hto
  rw [e1, e2, hdis]
  rfl

end Cert.Spec

end
-- ==== Proof.KernelRun.lean ====
/-
  The kernel program's run with its RESULT named: every weakly fair execution of @main terminates, the argument arrays
  end as launched, and the result array ends at the contents the last region's write-backs leave, `W8 … main_v44` —
  the fold of the buffer contents through the host stretches and the three regions. The final thread state holds every
  unscoped buffer at that fold; it is read at the result's buffer as well as at the arguments'.
-/
import proofs.«181691_j22565758173932_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result's buffer read off the last thread state beside the arguments'. -/
theorem run_value : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KRun

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.Region0.lean ====
/-
  The first kernel region: a dense layer followed by a per-row scale.  Its grid has 20 points; point `t` reads rows
  `5000·t … 5000·t + 4999` of the features `X : [100000, 128]` and of the column `D : [100000, 1]`, the whole weight
  matrix `W : [128, 64]`, multiplies the row block by `W` into a zero accumulator, scales row `r` of the product by
  `D[r, 0]`, and writes the same rows of the output.  On the extended reals a change of float format is the identity, so
  the value written at `(r, q)` is `(∑ₖ X[r, k] · W[k, q]) · D[r, 0]`; the 20 row blocks tile the output, so the whole
  output array is that one function of the three input arrays, whatever those arrays hold when the region is entered.
-/
import proofs.«181691_j22565758173932_2_alg».proof.Proof.Gen.KernelIdeal.Frame
import proofs.«181691_j22565758173932_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat)

/-- The zero offset of a block read whole. -/
theorem hz : (![0, 0] : Fin 2 → Nat) = fun _ => 0 := funext fun a => by fin_cases a <;> rfl

/-- Rows of `X` against columns of `W`, each row of the product scaled by the row's entry of the column `D`: the region's
    result as one function of its three input arrays. -/
abbrev denseScaled (X : S100000x128.Idx → EReal) (W : S128x64.Idx → EReal) (D : S100000x1.Idx → EReal) :
    S100000x64.Idx → EReal :=
  fun i => (∑ k : Fin 128, X (ix2 (i 0) k) * W (ix2 k (i 1))) * D (ix2 (i 0) 0)

/-! ## The body's arithmetic at an index of the block -/

/-- The column `[5000, 1]` spread over 64 lanes, at `(p, q)`, is its entry `(p, 0)`. -/
theorem spread_col (x2 : Vec Ideal S5000x1 .f32) (p : Fin 5000) (q : Fin 64) :
    broadcastTo S5000x64 x2 broadcasts_S5000x1_S5000x64 (ix2 p q) = x2 (ix2 p 0) :=
  broadcastTo_apply x2 _ (ix2 p q) (ix2 p 0) fun a => by
    match a with
    | ⟨0, _⟩ => rfl
    | ⟨1, _⟩ => rfl

/-- The row block times the weights into the zero accumulator, at `(p, q)`: row `p` against column `q`. -/
theorem product_apply (x0 : FVec Ideal S5000x128 .bf16) (x1 : FVec Ideal S128x64 .bf16) (p : Fin 5000) (q : Fin 64) :
    matmul dot_S5000x128_S128x64_S5000x64_1_0_0_1_n_n none x0 x1 (constant (F := Ideal) S5000x64 .f32 0x00000000#32) (ix2 p q)
      = ∑ k : Fin 128, x0 (ix2 p k) * x1 (ix2 k q) :=
  Cert.LibDot.matmul_zero_apply dot_S5000x128_S128x64_S5000x64_1_0_0_1_n_n rfl rfl
    (fun _ _ => rfl) (fun _ _ => rfl) (fun _ _ => rfl) (fun _ _ => rfl) none x0 x1 p q

/-- What the body stores at `(p, q)` of its block, from the three blocks it loaded. -/
theorem pay_apply (x0 : Vec Ideal S5000x128 .f32) (x1 : Vec Ideal S128x64 .bf16) (x2 : Vec Ideal S5000x1 .f32)
    (p : Fin 5000) (q : Fin 64) :
    k0_pay1 x0 x1 x2 (ix2 p q) = (∑ k : Fin 128, x0 (ix2 p k) * x1 (ix2 k q)) * x2 (ix2 p 0) := by
  unfold k0_pay1
  simp only [shapeCast_self]
  refine (truncf_apply (φ := .f32) (ψ := .bf16) _ bitsLt_bf16_f32 (ix2 p q)).trans ?_
  refine (mulf_apply _ _ _).trans ?_
  refine congrArg₂ (· * ·) ?_ (spread_col x2 p q)
  exact product_apply (truncf .bf16 x0 bitsLt_bf16_f32) x1 p q

/-- The same, with each loaded entry named as an entry of an array. -/
theorem pay_eq (x0 : Vec Ideal S5000x128 .f32) (x1 : Vec Ideal S128x64 .bf16) (x2 : Vec Ideal S5000x1 .f32)
    (X : S100000x128.Idx → EReal) (W : S128x64.Idx → EReal) (D : S100000x1.Idx → EReal)
    (p : Fin 5000) (q : Fin 64) (i : S100000x64.Idx)
    (h0 : ∀ k : Fin 128, x0 (ix2 p k) = X (ix2 (i 0) k)) (h1 : ∀ k : Fin 128, x1 (ix2 k q) = W (ix2 k (i 1)))
    (h2 : x2 (ix2 p 0) = D (ix2 (i 0) 0)) :
    k0_pay1 x0 x1 x2 (ix2 p q) = denseScaled X W D i := by
  rw [pay_apply, h2]
  exact congrArg (· * D (ix2 (i 0) 0)) (Finset.sum_congr rfl fun k _ => by rw [h0 k, h1 k])

/-! ## From the blocks to the array -/

variable (V : (c : Dev nD) → (b : Ref sig .tc) → Buf (Elt Ideal) ((c : Thread nD τ).loc b))

/-- The printed index maps over the grid: point `t` takes row block `t` of the features, of the column and of the
    output, and the one block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `denseScaled` of the arrays as the region finds them. -/
theorem flushed_eq (c : Dev nD) (t : Fin cfg0.N) :
    (dat0 (F := Ideal) V c).flushed 3 t
      = ((cfg0.win 3).blk t).view.read (Elt Ideal) (denseScaled (V c main_arg0) (V c main_v16) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S5000x1) hz]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  have hp : p.val < 5000 := p.isLt
  have hq : q.val < 64 := q.isLt
  refine pay_eq _ _ _ _ _ _ p q _ ?_ ?_ ?_
  · intro k
    show V c main_arg0 (((cfg0.win 0).blk t).view.emb (ix2 p k)) = V c main_arg0 (ix2 ((((cfg0.win 3).blk t).view.emb (ix2 p q)) 0) k)
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · intro k
    show V c main_v16 (((cfg0.win 1).blk t).view.emb (ix2 k q)) = V c main_v16 (ix2 k ((((cfg0.win 3).blk t).view.emb (ix2 p q)) 1))
    refine congrArg (V c main_v16) (funext fun a => Fin.ext ?_)
    match a with
    | ⟨0, _⟩ => show win0_1.index t (0 : Fin 2) * 128 + 1 * k.val = k.val; omega
    | ⟨1, _⟩ => show win0_1.index t (1 : Fin 2) * 64 + 1 * q.val = win0_3.index t (1 : Fin 2) * 64 + 1 * q.val; omega
  · show V c main_v15 (((cfg0.win 2).blk t).view.emb (ix2 p 0)) = V c main_v15 (ix2 ((((cfg0.win 3).blk t).view.emb (ix2 p q)) 0) 0)
    refine congrArg (V c main_v15) (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v18).slice (win0_3.rect t)).set ↔ _
  rw [View.set_slice_whole, Rect.mem_set_unit]
  exact Iff.rfl

/-- Row `r` of the output lies in the block of point `r / 5000`: the 20 row blocks tile the array. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- THE OUTPUT ARRAY after the region, as one function of the region's input arrays. -/
theorem out_eq (c : Dev nD) :
    (dat0 (F := Ideal) V c).arrAt 3 cfg0.N = denseScaled (V c main_arg0) (V c main_v16) (V c main_v15) :=
  (dat0 (F := Ideal) V c).arrAt_eq_of_cover 3 _ (fun t _ => flushed_eq V c t) cover

/-- The same with the function written out over the three input arrays under names of their literal types. -/
theorem out_eq_of (c : Dev nD) (X : S100000x128.Idx → EReal) (W : S128x64.Idx → EReal) (D : S100000x1.Idx → EReal)
    (hX : V c main_arg0 = X) (hW : V c main_v16 = W) (hD : V c main_v15 = D) :
    (dat0 (F := Ideal) V c).arrAt 3 cfg0.N
      = fun i => (∑ k : Fin 128, X (ix2 (i 0) k) * W (ix2 k (i 1))) * D (ix2 (i 0) 0) := by
  subst hX hW hD
  exact out_eq V c

end Cert.KernelIdeal.Region0

end
-- ==== Proof.Region1.lean ====
/-
  Region 1 of the kernel program: the fused epilogue and second dense layer, as one whole-array function.

  The region walks 20 row blocks of 5000 rows.  At a block it reads the aggregated hidden features `agg`
  (5000 × 64), the node scaling `dis` (a 5000 × 1 column), the bias row `b` (1 × 64) and the weights `W` (64 × 8),
  and writes
      out (p, q) = (∑ₖ logistic (agg (p, k) · dis p + b k) · W (k, q)) · dis p.
  Every row of the result depends only on the same row of `agg` and `dis`, so the blocks are restrictions of one
  function of the whole arrays, and since the 20 blocks tile the 100000 rows the output array ends holding it.
-/
import proofs.«181691_j22565758173932_2_alg».proof.Proof.Gen.KernelIdeal.Frame
import proofs.«181691_j22565758173932_2_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat)

/-! ## The body's arithmetic at an index -/

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The hidden pre-activation at `(p, k)`: the aggregated feature scaled by the row's `dis`, plus the bias. -/
theorem pre_apply (v0 : FVec Ideal S5000x1 .f32) (v2 : FVec Ideal S5000x64 .f32) (v6 : FVec Ideal S1x64 .f32)
    (p : Fin 5000) (k : Fin 64) :
    addf (mulf v2 (broadcastTo S5000x64 v0 broadcasts_S5000x1_S5000x64)) (broadcastTo S5000x64 v6 broadcasts_S1x64_S5000x64) (ix2 p k)
      = v2 (ix2 p k) * v0 (ix2 p 0) + v6 (ix2 0 k) := by
  show v2 (ix2 p k) * broadcastTo S5000x64 v0 broadcasts_S5000x1_S5000x64 (ix2 p k)
      + broadcastTo S5000x64 v6 broadcasts_S1x64_S5000x64 (ix2 p k) = _
  rw [broadcastTo_a1_ab_apply, broadcastTo_1b_ab_apply]

/-- The body's stored value at `(p, q)`: row `p` of the activated hidden layer against column `q` of the weights,
    scaled by the row's `dis`.  A change of float format is the identity on the extended reals, and the matrix product
    into the zero accumulator is the plain sum over the contracted axis. -/
theorem pay_apply (v0 : FVec Ideal S5000x1 .f32) (v2 : FVec Ideal S5000x64 .f32) (v6 : FVec Ideal S1x64 .f32)
    (v12 : FVec Ideal S64x8 .bf16) (p : Fin 5000) (q : Fin 8) :
    k1_pay1 (F := Ideal) v0 v2 v6 v12 (ix2 p q)
      = (∑ k : Fin 64, Ideal.logistic (v2 (ix2 p k) * v0 (ix2 p 0) + v6 (ix2 0 k)) * v12 (ix2 k q)) * v0 (ix2 p 0) := by
  unfold k1_pay1
  simp only [shapeCast_self]
  show FloatOps.matmul dot_S5000x64_S64x8_S5000x8_1_0_0_1_n_n none _ v12 (constant (F := Ideal) S5000x8 .f32 0x00000000#32) (ix2 p q)
      * broadcastTo S5000x8 v0 broadcasts_S5000x1_S5000x8 (ix2 p q) = _
  refine congrArg₂ (· * ·) ?_ (broadcastTo_a1_ab_apply v0 _ p q)
  refine (Cert.LibDot.matmul_zero_apply dot_S5000x64_S64x8_S5000x8_1_0_0_1_n_n rfl rfl (fun _ _ => rfl) (fun _ _ => rfl)
    (fun _ _ => rfl) (fun _ _ => rfl) none _ v12 p q).trans ?_
  refine Finset.sum_congr rfl fun k _ => ?_
  refine congrArg (· * v12 (ix2 k q)) ?_
  exact congrArg Ideal.logistic (pre_apply v0 v2 v6 p k)

/-! ## The whole-array function -/

/-- What the region's output array ends holding, as a function of the four arrays it reads: the aggregated hidden
    features `agg`, the bias row `b`, the node scaling `dis` (a column) and the second layer's weights `W`. -/
def scaledHiddenTimesW (agg : S100000x64.Idx → EReal) (b : S1x64.Idx → EReal) (dis : S100000x1.Idx → EReal)
    (W : S64x8.Idx → EReal) : S100000x8.Idx → EReal :=
  fun i => (∑ k : Fin 64, Ideal.logistic (agg (ix2 (i 0) k) * dis (ix2 (i 0) 0) + b (ix2 0 k)) * W (ix2 k (i 1))) * dis (ix2 (i 0) 0)

/-- The whole-array function at `(p, q)`, spelled over the two coordinates. -/
theorem scaledHiddenTimesW_apply (agg : S100000x64.Idx → EReal) (b : S1x64.Idx → EReal) (dis : S100000x1.Idx → EReal)
    (W : S64x8.Idx → EReal) (p : Fin 100000) (q : Fin 8) :
    scaledHiddenTimesW agg b dis W (ix2 p q)
      = (∑ k : Fin 64, Ideal.logistic (agg (ix2 p k) * dis (ix2 p 0) + b (ix2 0 k)) * W (ix2 k q)) * dis (ix2 p 0) := rfl

/-- A block's stored value at `(p, q)` is the whole-array function at `(row p, q)`, when the block's loads are the rows
    `row p` of `agg` and `dis` and the whole of `b` and `W`. -/
theorem block_apply (agg : S100000x64.Idx → EReal) (b : S1x64.Idx → EReal) (dis : S100000x1.Idx → EReal) (W : S64x8.Idx → EReal)
    (x0 : FVec Ideal S5000x64 .f32) (x1 : FVec Ideal S1x64 .f32) (x2 : FVec Ideal S5000x1 .f32) (x3 : FVec Ideal S64x8 .bf16)
    (row : Fin 5000 → Fin 100000)
    (h0 : ∀ (p : Fin 5000) (k : Fin 64), x0 (ix2 p k) = agg (ix2 (row p) k))
    (h1 : ∀ k : Fin 64, x1 (ix2 0 k) = b (ix2 0 k))
    (h2 : ∀ p : Fin 5000, x2 (ix2 p 0) = dis (ix2 (row p) 0))
    (h3 : ∀ (k : Fin 64) (q : Fin 8), x3 (ix2 k q) = W (ix2 k q))
    (p : Fin 5000) (q : Fin 8) :
    k1_pay1 (F := Ideal) x2 x0 x1 x3 (ix2 p q) = scaledHiddenTimesW agg b dis W (ix2 (row p) q) := by
  refine (pay_apply x2 x0 x1 x3 p q).trans ?_
  show _ = (∑ k : Fin 64, Ideal.logistic (agg (ix2 (row p) k) * dis (ix2 (row p) 0) + b (ix2 0 k)) * W (ix2 k q)) * dis (ix2 (row p) 0)
  rw [h2 p]
  refine congrArg (· * dis (ix2 (row p) 0)) (Finset.sum_congr rfl fun k _ => ?_)
  rw [h0 p k, h1 k, h3 k q]

/-! ## From blocks to the array -/

theorem zero_offsets : (![0, 0] : Fin 2 → Nat) = fun _ => 0 := funext fun a => by fin_cases a <;> rfl

/-- The windows' index maps over the 20 points: the row-blocked windows (`agg`, `dis`, the output) sit at block `t` on
    the row axis and block 0 on the other; the whole-array windows (`b`, `W`) at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The array row under row `p` of the block at point `t`. -/
def rowAt (t : Fin cfg1.N) (p : Fin 5000) : Fin 100000 :=
  ⟨t.val * 5000 + p.val, by have ht : t.val < 20 := t.isLt; have hp := p.isLt; omega⟩

/-- What point `t` writes back is block `t` of the whole-array function of the arrays as the region finds them. -/
theorem flushed_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal)
          (scaledHiddenTimesW (V c main_v29) (V c main_v30) (V c main_v15) (V c main_v17)) := by
  show (cfg1.win 4).cut (grid1.coords t) ((dat1 V c).after 4 t) = _
  rw [after1_4]
  unfold out1_4
  rw [View.canon_unit_zero zero_offsets]
  simp only [View.ld_unit_zero (S := S5000x64) zero_offsets, View.ld_unit_zero (S := S1x64) zero_offsets,
    View.ld_unit_zero (S := S5000x1) zero_offsets, View.ld_unit_zero (S := S64x8) zero_offsets]
  obtain ⟨e00, e01, e10, e11, e20, e21, e30, e31, e40, e41⟩ := index_facts t
  refine funext fun (j : S5000x8.Idx) => ?_
  obtain ⟨p, q, rfl⟩ : ∃ (p : Fin 5000) (q : Fin 8), j = ix2 p q := ⟨j 0, j 1, eq_ix2 j⟩
  show k1_pay1 (F := Ideal) (iblk1 V c 2 t) (iblk1 V c 0 t) (iblk1 V c 1 t) (iblk1 V c 3 t) (ix2 p q)
      = scaledHiddenTimesW (V c main_v29) (V c main_v30) (V c main_v15) (V c main_v17) (((cfg1.win 4).blk t).view.emb (ix2 p q))
  have hout : ((cfg1.win 4).blk t).view.emb (ix2 p q) = ix2 (rowAt t p) q := by
    funext a; apply Fin.ext
    match a with
    | ⟨0, _⟩ => show win1_4.index t (0 : Fin 2) * 5000 + 1 * p.val = t.val * 5000 + p.val; omega
    | ⟨1, _⟩ => show win1_4.index t (1 : Fin 2) * 8 + 1 * q.val = q.val; omega
  rw [hout]
  refine block_apply (V c main_v29) (V c main_v30) (V c main_v15) (V c main_v17)
    (iblk1 V c 0 t) (iblk1 V c 1 t) (iblk1 V c 2 t) (iblk1 V c 3 t) (rowAt t) ?_ ?_ ?_ ?_ p q
  · intro p k
    show V c main_v29 (((cfg1.win 0).blk t).view.emb (ix2 p k)) = V c main_v29 (ix2 (rowAt t p) k)
    refine congrArg (V c main_v29) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k
    show V c main_v30 (((cfg1.win 1).blk t).view.emb (ix2 0 k)) = V c main_v30 (ix2 0 k)
    refine congrArg (V c main_v30) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro p
    show V c main_v15 (((cfg1.win 2).blk t).view.emb (ix2 p 0)) = V c main_v15 (ix2 (rowAt t p) 0)
    refine congrArg (V c main_v15) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · intro k q
    show V c main_v17 (((cfg1.win 3).blk t).view.emb (ix2 k q)) = V c main_v17 (ix2 k q)
    refine congrArg (V c main_v17) (funext fun a => Fin.ext ?_)
    match a with
    | ⟨0, _⟩ => show win1_3.index t (0 : Fin 2) * 64 + 1 * k.val = k.val; omega
    | ⟨1, _⟩ => show win1_3.index t (1 : Fin 2) * 8 + 1 * q.val = q.val; omega

/-- An index of the output array is in point `t`'s block iff each coordinate is in the block's range on its axis. -/
theorem mem_blk (t : Fin cfg1.N) (i : S100000x8.Idx) :
    i ∈ ((cfg1.win 4).blk t).view.set ↔ ∀ a : Fin 2, win1_4.index t a * S5000x8.size a ≤ (i a).val
      ∧ (i a).val < win1_4.index t a * S5000x8.size a + S5000x8.size a := by
  show i ∈ ((View.whole main_v31).slice (win1_4.rect t)).set ↔ _
  rw [View.set_slice_whole, Rect.mem_set_unit]
  exact Iff.rfl

/-- The 20 blocks of 5000 rows tile the 100000 rows: row `r` lies in the block of point `r / 5000`. -/
theorem cover (i : S100000x8.Idx) :
    ∃ t : Fin cfg1.N, (cfg1.win 4).flush t = true ∧ i ∈ ((cfg1.win 4).blk t).view.set := by
  have hi0 : (i 0).val < 100000 := (i 0).isLt
  have hi1 : (i 1).val < 8 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, e40, e41⟩ := index_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 8 ≤ (i 1).val ∧ (i 1).val < win1_4.index t (1 : Fin 2) * 8 + 8
    omega

/-- THE OUTPUT ARRAY after the region: the whole-array function of the arrays the region finds. -/
theorem out_eq (V : (c : Dev nD) → (b : Ref sig .tc) → Buf (Elt Ideal) ((c : Thread nD τ).loc b)) (c : Dev nD) :
    (dat1 (F := Ideal) V c).arrAt 4 cfg1.N
      = scaledHiddenTimesW (V c main_v29) (V c main_v30) (V c main_v15) (V c main_v17) :=
  (dat1 (F := Ideal) V c).arrAt_eq_of_cover 4 (scaledHiddenTimesW (V c main_v29) (V c main_v30) (V c main_v15) (V c main_v17))
    (fun t _ => flushed_eq V c t) cover

/-- The same, over names for the four arrays the region finds. -/
theorem out_eq_of (V : (c : Dev nD) → (b : Ref sig .tc) → Buf (Elt Ideal) ((c : Thread nD τ).loc b)) (c : Dev nD)
    (A : S100000x64.Idx → EReal) (B : S1x64.Idx → EReal) (D : S100000x1.Idx → EReal) (W : S64x8.Idx → EReal)
    (hA : V c main_v29 = A) (hB : V c main_v30 = B) (hD : V c main_v15 = D) (hW : V c main_v17 = W) :
    (dat1 (F := Ideal) V c).arrAt 4 cfg1.N
      = fun i => (∑ k : Fin 64, Ideal.logistic (A (ix2 (i 0) k) * D (ix2 (i 0) 0) + B (ix2 0 k)) * W (ix2 k (i 1))) * D (ix2 (i 0) 0) := by
  subst hA hB hD hW
  exact out_eq V c

end Cert.KernelIdeal.Region1

end
-- ==== Proof.Region2.lean ====
/-
  The third kernel region: a per-row scale and a per-column bias.  Its grid has 20 points; point `t` reads rows
  `5000·t … 5000·t + 4999` of the feature array `x : [100000, 8]` and of the column `s : [100000, 1]`, the whole bias row
  `b : [1, 8]`, and writes the same rows of the output.  On the extended reals the value written at `(r, q)` is
  `x[r, q] · s[r, 0] + b[0, q]`; the 20 row blocks tile the output, so the whole output array is that one function of
  the three input arrays, whatever those arrays hold when the region is entered.
-/
import proofs.«181691_j22565758173932_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.ValueIdx Idealize.ShloMosaic.TcCoe Idealize.SL.Sem
open Idealize.ShloMosaic.Pipeline (Dat)

/-- The zero offset of a block read whole. -/
theorem hz : (![0, 0] : Fin 2 → Nat) = fun _ => 0 := funext fun a => by fin_cases a <;> rfl

/-- Scale by the row's factor, add the column's bias: the region's result as one function of its three input arrays. -/
abbrev scaleBias (x : S100000x8.Idx → EReal) (s : S100000x1.Idx → EReal) (b : S1x8.Idx → EReal) : S100000x8.Idx → EReal :=
  fun i => x i * s (ix2 (i 0) 0) + b (ix2 0 (i 1))

/-! ## The body's arithmetic at an index of the block -/

/-- The column `[5000, 1]` spread over 8 lanes, at `(p, q)`, is its entry `(p, 0)`. -/
theorem spread_col (x1 : Vec Ideal S5000x1 .f32) (p : Fin 5000) (q : Fin 8) :
    broadcastTo S5000x8 x1 broadcasts_S5000x1_S5000x8 (ix2 p q) = x1 (ix2 p 0) :=
  broadcastTo_apply x1 _ (ix2 p q) (ix2 p 0) fun a => by
    match a with
    | ⟨0, _⟩ => rfl
    | ⟨1, _⟩ => rfl

/-- The row `[1, 8]` spread over 5000 rows, at `(p, q)`, is its entry `(0, q)`. -/
theorem spread_row (x2 : Vec Ideal S1x8 .f32) (p : Fin 5000) (q : Fin 8) :
    broadcastTo S5000x8 x2 broadcasts_S1x8_S5000x8 (ix2 p q) = x2 (ix2 0 q) :=
  broadcastTo_apply x2 _ (ix2 p q) (ix2 0 q) fun a => by
    match a with
    | ⟨0, _⟩ => rfl
    | ⟨1, _⟩ => rfl

/-- What the body stores at `(p, q)` of its block, from the three blocks it loaded. -/
theorem pay_apply (x0 : Vec Ideal S5000x8 .f32) (x1 : Vec Ideal S5000x1 .f32) (x2 : Vec Ideal S1x8 .f32)
    (p : Fin 5000) (q : Fin 8) :
    k2_pay1 x0 x1 x2 (ix2 p q) = x0 (ix2 p q) * x1 (ix2 p 0) + x2 (ix2 0 q) := by
  unfold k2_pay1
  simp only [shapeCast_self]
  refine (addf_apply _ _ _).trans ?_
  refine congrArg₂ (· + ·) ((mulf_apply _ _ _).trans ?_) (spread_row x2 p q)
  exact congrArg (x0 (ix2 p q) * ·) (spread_col x1 p q)

/-- The same, with each loaded entry named as an entry of an array. -/
theorem pay_eq (x0 : Vec Ideal S5000x8 .f32) (x1 : Vec Ideal S5000x1 .f32) (x2 : Vec Ideal S1x8 .f32)
    (x : S100000x8.Idx → EReal) (s : S100000x1.Idx → EReal) (b : S1x8.Idx → EReal)
    (p : Fin 5000) (q : Fin 8) (i : S100000x8.Idx)
    (h0 : x0 (ix2 p q) = x i) (h1 : x1 (ix2 p 0) = s (ix2 (i 0) 0)) (h2 : x2 (ix2 0 q) = b (ix2 0 (i 1))) :
    k2_pay1 x0 x1 x2 (ix2 p q) = scaleBias x s b i := by
  rw [pay_apply, h0, h1, h2]

/-! ## From the blocks to the array -/

variable (V : (c : Dev nD) → (b : Ref sig .tc) → Buf (Elt Ideal) ((c : Thread nD τ).loc b))

/-- The printed index maps over the grid: point `t` takes row block `t` of the features, of the column and of the
    output, and the one block of the bias row. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `scaleBias` of the arrays as the region finds them. -/
theorem flushed_eq (c : Dev nD) (t : Fin cfg2.N) :
    (dat2 (F := Ideal) V c).flushed 3 t
      = ((cfg2.win 3).blk t).view.read (Elt Ideal) (scaleBias (V c main_v42) (V c main_v15) (V c main_v43)) := by
  show (cfg2.win 3).cut (grid2.coords t) ((dat2 V c).after 3 t) = _
  rw [after2_3]
  unfold out2_3
  rw [View.canon_unit_zero hz]
  simp only [View.ld_unit_zero (S := S5000x8) hz, View.ld_unit_zero (S := S5000x1) hz, View.ld_unit_zero (S := S1x8) hz]
  obtain ⟨e00, e01, e10, e11, e20, e21, e30, e31⟩ := idx_facts t
  funext j
  obtain ⟨p, q, rfl⟩ : ∃ (p : Fin 5000) (q : Fin 8), j = ix2 p q := ⟨j 0, j 1, eq_ix2 j⟩
  have hp : p.val < 5000 := p.isLt
  have hq : q.val < 8 := q.isLt
  refine pay_eq _ _ _ _ _ _ p q _ ?_ ?_ ?_
  · show V c main_v42 (((cfg2.win 0).blk t).view.emb (ix2 p q)) = V c main_v42 (((cfg2.win 3).blk t).view.emb (ix2 p q))
    refine congrArg (V c main_v42) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 8 + 1 * q.val = win2_3.index t (1 : Fin 2) * 8 + 1 * q.val; omega
  · show V c main_v15 (((cfg2.win 1).blk t).view.emb (ix2 p 0)) = V c main_v15 (ix2 ((((cfg2.win 3).blk t).view.emb (ix2 p q)) 0) 0)
    refine congrArg (V c main_v15) (funext fun a => Fin.ext ?_)
    match a with
    | ⟨0, _⟩ => show win2_1.index t (0 : Fin 2) * 5000 + 1 * p.val = win2_3.index t (0 : Fin 2) * 5000 + 1 * p.val; omega
    | ⟨1, _⟩ => show win2_1.index t (1 : Fin 2) * 1 + 1 * 0 = 0; omega
  · show V c main_v43 (((cfg2.win 2).blk t).view.emb (ix2 0 q)) = V c main_v43 (ix2 0 ((((cfg2.win 3).blk t).view.emb (ix2 p q)) 1))
    refine congrArg (V c main_v43) (funext fun a => Fin.ext ?_)
    match a with
    | ⟨0, _⟩ => show win2_2.index t (0 : Fin 2) * 1 + 1 * 0 = 0; omega
    | ⟨1, _⟩ => show win2_2.index t (1 : Fin 2) * 8 + 1 * q.val = win2_3.index t (1 : Fin 2) * 8 + 1 * q.val; omega

/-- An index of the output array is in point `t`'s block iff each coordinate is in the block's range on its axis. -/
theorem mem_blk (t : Fin cfg2.N) (i : S100000x8.Idx) :
    i ∈ ((cfg2.win 3).blk t).view.set ↔ ∀ a : Fin 2, win2_3.index t a * S5000x8.size a ≤ (i a).val ∧ (i a).val < win2_3.index t a * S5000x8.size a + S5000x8.size a := by
  show i ∈ ((View.whole main_v44).slice (win2_3.rect t)).set ↔ _
  rw [View.set_slice_whole, Rect.mem_set_unit]
  exact Iff.rfl

/-- Row `r` of the output lies in the block of point `r / 5000`: the 20 row blocks tile the array. -/
theorem cover (i : S100000x8.Idx) :
    ∃ t : Fin cfg2.N, (cfg2.win 3).flush t = true ∧ i ∈ ((cfg2.win 3).blk t).view.set := by
  have hi0 : (i 0).val < 100000 := (i 0).isLt
  have hi1 : (i 1).val < 8 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e30, e31⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 8 ≤ (i 1).val ∧ (i 1).val < win2_3.index t (1 : Fin 2) * 8 + 8; omega

/-- THE OUTPUT ARRAY after the region, as one function of the region's input arrays. -/
theorem out_eq (c : Dev nD) :
    (dat2 (F := Ideal) V c).arrAt 3 cfg2.N = scaleBias (V c main_v42) (V c main_v15) (V c main_v43) :=
  (dat2 (F := Ideal) V c).arrAt_eq_of_cover 3 _ (fun t _ => flushed_eq V c t) cover

/-- The same with the function written out over the three input arrays under names of their literal types. -/
theorem out_eq_of (c : Dev nD) (x : S100000x8.Idx → EReal) (s : S100000x1.Idx → EReal) (b : S1x8.Idx → EReal)
    (hx : V c main_v42 = x) (hs : V c main_v15 = s) (hb : V c main_v43 = b) :
    (dat2 (F := Ideal) V c).arrAt 3 cfg2.N = fun i => x i * s (ix2 (i 0) 0) + b (ix2 0 (i 1)) := by
  subst hx hs hb
  exact out_eq V c

end Cert.KernelIdeal.Region2

end
-- ==== Proof.KernelValue.lean ====
/-
  What the kernel program leaves in its result array, as ONE function of the argument arrays: the network of the
  specification (Spec.lean).

  The program is three row-blocked regions among stretches of host operations. Walking the buffer contents forward:
    · before region 0 the host builds the two edge lists (the rows of the edge array followed by the self loops), the
      degree vector, the normalisation vector `dis` (as a column) and the two weight matrices in the narrow format
      (the same numbers on the extended reals);
    · region 0 leaves  (x · W1)[p, q] · dis p;
    · the next stretch gathers those rows along the edges' sources and adds them up at the edges' destinations (from
      the zero word), and lays the first bias out as a row;
    · region 1 forms the hidden layer  (edge sum)[p, k] · dis p + b1 k, takes its logistic, multiplies by W2 and
      scales the rows by `dis` again;
    · the last stretch is the same edge sum over 8 features, and region 2 scales by `dis` and adds the second bias.
  Each host stretch is read from ANY incoming contents (`s0_…`, `s1_…`, `s2_…`, `s5_…`, `s7_…`), each region's
  result array is the closed form of Region0/1/2.lean, a buffer a region only reads (or does not touch) keeps its
  contents, and the pieces are the specification's by unfolding: the kernel scales per node before and after the sum,
  which is the form `Spec.prop64` / `Spec.prop8` is written in.
-/
import proofs.«181691_j22565758173932_2_alg».proof.Proof.Gen.KernelIdeal.Frame
import proofs.«181691_j22565758173932_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«181691_j22565758173932_2_alg».proof.Proof.Region0
import proofs.«181691_j22565758173932_2_alg».proof.Proof.Region1
import proofs.«181691_j22565758173932_2_alg».proof.Proof.Region2

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

abbrev Vl := Valuation τ sig (Elt Ideal)

/-! ## The host stretches before region 0, one at a time, from any contents -/

theorem s0_v3 (U : Vl) : StableHlo.after hostOps0 U (Proc.devRef .tc main_v3) = Cert.Spec.src (U (Proc.devRef .tc main_arg1)) := by
  after_results
  try rfl
theorem s0_v6 (U : Vl) : StableHlo.after hostOps0 U (Proc.devRef .tc main_v6) = Cert.Spec.dst (U (Proc.devRef .tc main_arg1)) := by
  after_results
  try rfl
theorem s0_v10 (U : Vl) : StableHlo.after hostOps0 U (Proc.devRef .tc main_v10) = Cert.Spec.deg (U (Proc.devRef .tc main_arg1)) := by
  after_results
  try rfl
set_option maxHeartbeats 1000000 in
theorem s0_v12 (U : Vl) : StableHlo.after hostOps0 U (Proc.devRef .tc main_v12)
    = cmpf .ogt (Cert.Spec.deg (U (Proc.devRef .tc main_arg1))) (broadcastInDim S100000 ![] bcast_S_S100000 (constant (F := Ideal) S_ .f32 0x00000000#32)) := by
  after_results
  try rfl
set_option maxHeartbeats 1000000 in
theorem s0_v13 (U : Vl) : StableHlo.after hostOps0 U (Proc.devRef .tc main_v13) = Host.rsqrt (Cert.Spec.deg (U (Proc.devRef .tc main_arg1))) := by
  after_results
  try rfl
theorem s0_cst2 (U : Vl) : StableHlo.after hostOps0 U (Proc.devRef .tc main_cst_2) = constant (F := Ideal) S_ .f32 0x00000000#32 := by
  after_results
  try rfl

theorem s1_v14 (U : Vl) : StableHlo.after hostOps0_1 U (Proc.devRef .tc main_v14)
    = select (U (Proc.devRef .tc main_v12)) (U (Proc.devRef .tc main_v13))
        (broadcastInDim S100000 ![] bcast_S_S100000 (id (U (Proc.devRef .tc main_cst_2)))) := by
  after_results
  try rfl

theorem s2_v15 (U : Vl) : StableHlo.after hostOps0_2 U (Proc.devRef .tc main_v15)
    = shapeCast S100000x1 (U (Proc.devRef .tc main_v14)) shapeCasts_S100000_S100000x1 := by
  after_results
  try rfl

/-- The normalisation vector as region 0 and every later stretch find it. -/
theorem W2_v14 : W2 m ρ c (Proc.devRef .tc main_v14) = Cert.Spec.dis (m ((c : Thread nD τ).loc main_arg1)) := by
  refine (s1_v14 (W1 m ρ c)).trans ?_
  dsimp only [W1]
  rw [s0_v12, s0_v13, s0_cst2]
  rfl

theorem W3_v15 : W3 m ρ c (Proc.devRef .tc main_v15)
    = shapeCast S100000x1 (Cert.Spec.dis (m ((c : Thread nD τ).loc main_arg1))) shapeCasts_S100000_S100000x1 :=
  (s2_v15 (W2 m ρ c)).trans (congrArg (fun d => shapeCast S100000x1 d shapeCasts_S100000_S100000x1) (W2_v14 m ρ c))

theorem W3_v3 : W3 m ρ c (Proc.devRef .tc main_v3) = Cert.Spec.src (m ((c : Thread nD τ).loc main_arg1)) := by
  show StableHlo.after hostOps0_2 (StableHlo.after hostOps0_1 (StableHlo.after hostOps0 (W0 m ρ c))) (Proc.devRef .tc main_v3) = _
  after_results
  try rfl

theorem W3_v6 : W3 m ρ c (Proc.devRef .tc main_v6) = Cert.Spec.dst (m ((c : Thread nD τ).loc main_arg1)) := by
  show StableHlo.after hostOps0_2 (StableHlo.after hostOps0_1 (StableHlo.after hostOps0 (W0 m ρ c))) (Proc.devRef .tc main_v6) = _
  after_results
  try rfl

theorem W3_v16 : W3 m ρ c (Proc.devRef .tc main_v16)
    = (truncf .bf16 (m ((c : Thread nD τ).loc main_arg2) : FVec Ideal S128x64 .f32) bitsLt_bf16_f32 : FVec Ideal S128x64 .bf16) := by
  show StableHlo.after hostOps0_2 (StableHlo.after hostOps0_1 (StableHlo.after hostOps0 (W0 m ρ c))) (Proc.devRef .tc main_v16) = _
  after_results
  try rfl

theorem W3_v17 : W3 m ρ c (Proc.devRef .tc main_v17)
    = (truncf .bf16 (m ((c : Thread nD τ).loc main_arg4) : FVec Ideal S64x8 .f32) bitsLt_bf16_f32 : FVec Ideal S64x8 .bf16) := by
  show StableHlo.after hostOps0_2 (StableHlo.after hostOps0_1 (StableHlo.after hostOps0 (W0 m ρ c))) (Proc.devRef .tc main_v17) = _
  after_results
  try rfl

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
  try rfl

theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
  try rfl

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results
  try rfl

/-! ## Region 0's exit -/

theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_v3 : W4 m ρ c (Proc.devRef .tc main_v3) = W3 m ρ c (Proc.devRef .tc main_v3) := W4_of_ne m ρ c main_v3 (by decide)
theorem W4_v6 : W4 m ρ c (Proc.devRef .tc main_v6) = W3 m ρ c (Proc.devRef .tc main_v6) := W4_of_ne m ρ c main_v6 (by decide)
theorem W4_v17 : W4 m ρ c (Proc.devRef .tc main_v17) = W3 m ρ c (Proc.devRef .tc main_v17) := W4_of_ne m ρ c main_v17 (by decide)
theorem W4_arg3 : W4 m ρ c (Proc.devRef .tc main_arg3) = W3 m ρ c (Proc.devRef .tc main_arg3) := W4_of_ne m ρ c main_arg3 (by decide)
theorem W4_arg5 : W4 m ρ c (Proc.devRef .tc main_arg5) = W3 m ρ c (Proc.devRef .tc main_arg5) := W4_of_ne m ρ c main_arg5 (by decide)

/-! ## The stretch between regions 0 and 1, from any contents -/

/-- The rows of `A` gathered along the edges and added up at their destinations, from the zero word. -/
def edgeSum64 (A : S100000x64.Idx → EReal) (ds sr : IVec S3300000 32) : S100000x64.Idx → EReal := fun i =>
  Ideal.ofBits .f32 0x00000000#32
    + ∑ j ∈ Finset.univ.filter (fun j => Cert.Spec.scat64.resultIdx? j (Cert.Spec.col ds) = some i),
        A (Cert.Spec.gath64.operandIdx j (Cert.Spec.col (Cert.Spec.wrap sr)))

def edgeSum8 (A : S100000x8.Idx → EReal) (ds sr : IVec S3300000 32) : S100000x8.Idx → EReal := fun i =>
  Ideal.ofBits .f32 0x00000000#32
    + ∑ j ∈ Finset.univ.filter (fun j => Cert.Spec.scat8.resultIdx? j (Cert.Spec.col ds) = some i),
        A (Cert.Spec.gath8.operandIdx j (Cert.Spec.col (Cert.Spec.wrap sr)))

theorem s5_v29 (U : Vl) : StableHlo.after hostOps1 U (Proc.devRef .tc main_v29)
    = edgeSum64 (U (Proc.devRef .tc main_v18)) (U (Proc.devRef .tc main_v6)) (U (Proc.devRef .tc main_v3)) := by
  after_results
  rfl

theorem s5_v30 (U : Vl) : StableHlo.after hostOps1 U (Proc.devRef .tc main_v30)
    = shapeCast S1x64 (U (Proc.devRef .tc main_arg3)) shapeCasts_S64_S1x64 := by
  after_results
  try rfl

theorem s5_v15 (U : Vl) : StableHlo.after hostOps1 U (Proc.devRef .tc main_v15) = U (Proc.devRef .tc main_v15) := by
  after_results
theorem s5_v17 (U : Vl) : StableHlo.after hostOps1 U (Proc.devRef .tc main_v17) = U (Proc.devRef .tc main_v17) := by
  after_results
theorem s5_v3 (U : Vl) : StableHlo.after hostOps1 U (Proc.devRef .tc main_v3) = U (Proc.devRef .tc main_v3) := by
  after_results
theorem s5_v6 (U : Vl) : StableHlo.after hostOps1 U (Proc.devRef .tc main_v6) = U (Proc.devRef .tc main_v6) := by
  after_results
theorem s5_arg5 (U : Vl) : StableHlo.after hostOps1 U (Proc.devRef .tc main_arg5) = U (Proc.devRef .tc main_arg5) := by
  after_results

/-! ## The stretch between regions 1 and 2, from any contents -/

theorem s7_v42 (U : Vl) : StableHlo.after hostOps2 U (Proc.devRef .tc main_v42)
    = edgeSum8 (U (Proc.devRef .tc main_v31)) (U (Proc.devRef .tc main_v6)) (U (Proc.devRef .tc main_v3)) := by
  after_results
  rfl

theorem s7_v43 (U : Vl) : StableHlo.after hostOps2 U (Proc.devRef .tc main_v43)
    = shapeCast S1x8 (U (Proc.devRef .tc main_arg5)) shapeCasts_S8_S1x8 := by
  after_results
  try rfl

theorem s7_v15 (U : Vl) : StableHlo.after hostOps2 U (Proc.devRef .tc main_v15) = U (Proc.devRef .tc main_v15) := by
  after_results

/-! ## Small layout facts -/

/-- A vector cast to a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## The arguments and the normalisation vector, typed -/

abbrev aX : Cert.Spec.SNx128.Idx → EReal := m ((c : Thread nD τ).loc main_arg0)
abbrev aE : IVec Cert.Spec.S2xE 32 := m ((c : Thread nD τ).loc main_arg1)
abbrev aW1 : Cert.Spec.S128x64.Idx → EReal := m ((c : Thread nD τ).loc main_arg2)
abbrev aB1 : Cert.Spec.S64.Idx → EReal := m ((c : Thread nD τ).loc main_arg3)
abbrev aW2 : Cert.Spec.S64x8.Idx → EReal := m ((c : Thread nD τ).loc main_arg4)
abbrev aB2 : Cert.Spec.S8.Idx → EReal := m ((c : Thread nD τ).loc main_arg5)
/-- The normalisation vector as a column. -/
abbrev dCol : S100000x1.Idx → EReal := shapeCast S100000x1 (Cert.Spec.dis (aE m c)) shapeCasts_S100000_S100000x1

theorem dCol_apply (p : Fin 100000) (u : Fin 1) : dCol m c (ix2 p u) = Cert.Spec.dis (aE m c) (ix1 p) :=
  shapeCast_a_a1_apply _ _ p u

/-! ## Region 0's result: the first dense layer, its rows scaled -/

theorem W4_v18 : W4 m ρ c (Proc.devRef .tc main_v18)
    = fun i => (∑ k : Fin 128, aX m c (ix2 (i 0) k) * (truncf .bf16 (aW1 m c) bitsLt_bf16_f32 : FVec Ideal S128x64 .bf16) (ix2 k (i 1))) * dCol m c (ix2 (i 0) 0) :=
  (W4_arr m ρ c 3).trans (Cert.KernelIdeal.Region0.out_eq_of (V3 m ρ) c _ _ _ (W3_arg0 m ρ c) (W3_v16 m ρ c) (W3_v15 m ρ c))

theorem W4_v18_apply (p : Fin 100000) (q : Fin 64) : (W4 m ρ c (Proc.devRef .tc main_v18) : S100000x64.Idx → EReal) (ix2 p q)
    = Cert.Spec.lin (fun p k => aX m c (ix2 p k)) (aW1 m c) p q * Cert.Spec.dis (aE m c) (ix1 p) := by
  rw [W4_v18]
  show (∑ k : Fin 128, aX m c (ix2 p k) * aW1 m c (ix2 k q)) * dCol m c (ix2 p 0) = _
  rw [dCol_apply]
  rfl

/-! ## Region 1's entry: the edge sums of region 0's rows, the bias as a row -/

theorem W5_v29 : W5 m ρ c (Proc.devRef .tc main_v29)
    = edgeSum64 (W4 m ρ c (Proc.devRef .tc main_v18)) (Cert.Spec.dst (aE m c)) (Cert.Spec.src (aE m c)) := by
  refine (s5_v29 (W4 m ρ c)).trans ?_
  rw [W4_v6, W4_v3, W3_v6, W3_v3]

theorem W5_v30 : W5 m ρ c (Proc.devRef .tc main_v30) = shapeCast S1x64 (aB1 m c) shapeCasts_S64_S1x64 := by
  refine (s5_v30 (W4 m ρ c)).trans ?_
  rw [W4_arg3, W3_arg3]

theorem W5_v15 : W5 m ρ c (Proc.devRef .tc main_v15) = dCol m c :=
  (s5_v15 (W4 m ρ c)).trans ((W4_v15 m ρ c).trans (W3_v15 m ρ c))

theorem W5_v17 : W5 m ρ c (Proc.devRef .tc main_v17)
    = (truncf .bf16 (aW2 m c) bitsLt_bf16_f32 : FVec Ideal S64x8 .bf16) :=
  (s5_v17 (W4 m ρ c)).trans ((W4_v17 m ρ c).trans (W3_v17 m ρ c))

theorem W5_v3 : W5 m ρ c (Proc.devRef .tc main_v3) = Cert.Spec.src (aE m c) :=
  (s5_v3 (W4 m ρ c)).trans ((W4_v3 m ρ c).trans (W3_v3 m ρ c))
theorem W5_v6 : W5 m ρ c (Proc.devRef .tc main_v6) = Cert.Spec.dst (aE m c) :=
  (s5_v6 (W4 m ρ c)).trans ((W4_v6 m ρ c).trans (W3_v6 m ρ c))
theorem W5_arg5 : W5 m ρ c (Proc.devRef .tc main_arg5) = aB2 m c :=
  (s5_arg5 (W4 m ρ c)).trans ((W4_arg5 m ρ c).trans (W3_arg5 m ρ c))

/-- Region 0's result at any index, by its coordinates. -/
theorem W4_v18_at (r : S100000x64.Idx) : (W4 m ρ c (Proc.devRef .tc main_v18) : S100000x64.Idx → EReal) r
    = Cert.Spec.lin (fun p k => aX m c (ix2 p k)) (aW1 m c) (r 0) (r 1) * Cert.Spec.dis (aE m c) (ix1 (r 0)) := by
  obtain ⟨p, q, rfl⟩ : ∃ (p : Fin 100000) (q : Fin 64), r = ix2 p q := ⟨r 0, r 1, eq_ix2 r⟩
  exact W4_v18_apply m ρ c p q

/-- The hidden layer before its logistic, as region 1's body forms it from its blocks. -/
theorem hidden_apply (p : Fin 100000) (k : Fin 64) :
    edgeSum64 (W4 m ρ c (Proc.devRef .tc main_v18)) (Cert.Spec.dst (aE m c)) (Cert.Spec.src (aE m c)) (ix2 p k) * dCol m c (ix2 p 0)
        + shapeCast S1x64 (aB1 m c) shapeCasts_S64_S1x64 (ix2 0 k)
      = Cert.Spec.hidden (aX m c) (aE m c) (aW1 m c) (aB1 m c) p k := by
  rw [dCol_apply, shapeCast_a_1a_apply]
  unfold edgeSum64 Cert.Spec.hidden Cert.Spec.prop64
  rw [Ideal.ofBits_zero_f32, zero_add]
  refine congrArg (fun s => s * Cert.Spec.dis (aE m c) (ix1 p) + aB1 m c (ix1 k)) ?_
  refine Finset.sum_congr rfl fun j _ => ?_
  exact W4_v18_at m ρ c (Cert.Spec.from64 (aE m c) j)

/-! ## Region 1's result: the second dense layer over the logistic of the hidden layer, its rows scaled -/

theorem W6_v31 : W6 m ρ c (Proc.devRef .tc main_v31)
    = fun i => (∑ k : Fin 64, Ideal.logistic
          (edgeSum64 (W4 m ρ c (Proc.devRef .tc main_v18)) (Cert.Spec.dst (aE m c)) (Cert.Spec.src (aE m c)) (ix2 (i 0) k) * dCol m c (ix2 (i 0) 0)
            + shapeCast S1x64 (aB1 m c) shapeCasts_S64_S1x64 (ix2 0 k))
          * (truncf .bf16 (aW2 m c) bitsLt_bf16_f32 : FVec Ideal S64x8 .bf16) (ix2 k (i 1))) * dCol m c (ix2 (i 0) 0) :=
  (W6_arr m ρ c 4).trans (Cert.KernelIdeal.Region1.out_eq_of (V5 m ρ) c _ _ _ _ (W5_v29 m ρ c) (W5_v30 m ρ c) (W5_v15 m ρ c) (W5_v17 m ρ c))

theorem W6_v31_apply (p : Fin 100000) (q : Fin 8) : (W6 m ρ c (Proc.devRef .tc main_v31) : S100000x8.Idx → EReal) (ix2 p q)
    = Cert.Spec.lin (fun p k => Ideal.logistic (Cert.Spec.hidden (aX m c) (aE m c) (aW1 m c) (aB1 m c) p k)) (aW2 m c) p q
        * Cert.Spec.dis (aE m c) (ix1 p) := by
  rw [W6_v31]
  show (∑ k : Fin 64, Ideal.logistic
          (edgeSum64 (W4 m ρ c (Proc.devRef .tc main_v18)) (Cert.Spec.dst (aE m c)) (Cert.Spec.src (aE m c)) (ix2 p k) * dCol m c (ix2 p 0)
            + shapeCast S1x64 (aB1 m c) shapeCasts_S64_S1x64 (ix2 0 k)) * aW2 m c (ix2 k q)) * dCol m c (ix2 p 0) = _
  rw [dCol_apply]
  refine congrArg (fun s => s * Cert.Spec.dis (aE m c) (ix1 p)) ?_
  refine Finset.sum_congr rfl fun k _ => ?_
  rw [← dCol_apply m c p 0, hidden_apply]

theorem W6_v31_at (r : S100000x8.Idx) : (W6 m ρ c (Proc.devRef .tc main_v31) : S100000x8.Idx → EReal) r
    = Cert.Spec.lin (fun p k => Ideal.logistic (Cert.Spec.hidden (aX m c) (aE m c) (aW1 m c) (aB1 m c) p k)) (aW2 m c) (r 0) (r 1)
        * Cert.Spec.dis (aE m c) (ix1 (r 0)) := by
  obtain ⟨p, q, rfl⟩ : ∃ (p : Fin 100000) (q : Fin 8), r = ix2 p q := ⟨r 0, r 1, eq_ix2 r⟩
  exact W6_v31_apply m ρ c p q

theorem W6_v15 : W6 m ρ c (Proc.devRef .tc main_v15) = dCol m c :=
  (W6_arr m ρ c 2).trans (((dat1 (V5 m ρ) c).arrAt_in 2 rfl _).trans ((A_eq1 (V5 m ρ) c 2).trans (W5_v15 m ρ c)))
theorem W6_v3 : W6 m ρ c (Proc.devRef .tc main_v3) = Cert.Spec.src (aE m c) :=
  (W6_of_ne m ρ c main_v3 (by decide)).trans (W5_v3 m ρ c)
theorem W6_v6 : W6 m ρ c (Proc.devRef .tc main_v6) = Cert.Spec.dst (aE m c) :=
  (W6_of_ne m ρ c main_v6 (by decide)).trans (W5_v6 m ρ c)
theorem W6_arg5 : W6 m ρ c (Proc.devRef .tc main_arg5) = aB2 m c :=
  (W6_of_ne m ρ c main_arg5 (by decide)).trans (W5_arg5 m ρ c)

/-! ## Region 2's entry and result -/

theorem W7_v42 : W7 m ρ c (Proc.devRef .tc main_v42)
    = edgeSum8 (W6 m ρ c (Proc.devRef .tc main_v31)) (Cert.Spec.dst (aE m c)) (Cert.Spec.src (aE m c)) := by
  refine (s7_v42 (W6 m ρ c)).trans ?_
  rw [W6_v6, W6_v3]
theorem W7_v43 : W7 m ρ c (Proc.devRef .tc main_v43) = shapeCast S1x8 (aB2 m c) shapeCasts_S8_S1x8 := by
  refine (s7_v43 (W6 m ρ c)).trans ?_
  rw [W6_arg5]
theorem W7_v15 : W7 m ρ c (Proc.devRef .tc main_v15) = dCol m c :=
  (s7_v15 (W6 m ρ c)).trans (W6_v15 m ρ c)

theorem W8_v44 : W8 m ρ c (Proc.devRef .tc main_v44)
    = fun i => edgeSum8 (W6 m ρ c (Proc.devRef .tc main_v31)) (Cert.Spec.dst (aE m c)) (Cert.Spec.src (aE m c)) i * dCol m c (ix2 (i 0) 0)
        + shapeCast S1x8 (aB2 m c) shapeCasts_S8_S1x8 (ix2 0 (i 1)) :=
  (W8_arr m ρ c 3).trans (Cert.KernelIdeal.Region2.out_eq_of (V7 m ρ) c _ _ _ (W7_v42 m ρ c) (W7_v15 m ρ c) (W7_v43 m ρ c))

/-- THE KERNEL'S RESULT: what the last region leaves in the result array is the network of the specification. -/
theorem value : W8 m ρ c (Proc.devRef .tc main_v44)
    = Cert.Spec.out (aX m c) (aE m c) (aW1 m c) (aB1 m c) (aW2 m c) (aB2 m c) := by
  rw [W8_v44]
  funext i
  obtain ⟨p, q, rfl⟩ : ∃ (p : Fin 100000) (q : Fin 8), i = ix2 p q := ⟨i 0, i 1, eq_ix2 i⟩
  show edgeSum8 (W6 m ρ c (Proc.devRef .tc main_v31)) (Cert.Spec.dst (aE m c)) (Cert.Spec.src (aE m c)) (ix2 p q) * dCol m c (ix2 p 0)
        + shapeCast S1x8 (aB2 m c) shapeCasts_S8_S1x8 (ix2 0 q)
      = Cert.Spec.prop8 (aE m c) (Cert.Spec.lin (fun p k => Ideal.logistic (Cert.Spec.hidden (aX m c) (aE m c) (aW1 m c) (aB1 m c) p k)) (aW2 m c)) (aB2 m c) p q
  rw [dCol_apply, shapeCast_a_1a_apply]
  unfold edgeSum8 Cert.Spec.prop8
  rw [Ideal.ofBits_zero_f32, zero_add]
  refine congrArg (fun s => s * Cert.Spec.dis (aE m c) (ix1 p) + aB2 m c (ix1 q)) ?_
  refine Finset.sum_congr rfl fun j _ => ?_
  exact W6_v31_at m ρ c (Cert.Spec.from8 (aE m c) j)

end Cert.KernelIdeal.KValue

end
-- ==== Proof.RefValue.lean ====
/-
  The reference program's result, on the extended reals, is the specification's network of its six arguments.

  The reference computes, twice over, a graph convolution: a dense layer; the in-degree of every node (ones added at the
  destinations of the edges); its power `-1/2` where positive and `0` elsewhere; for every edge the product of that
  normalisation at its wrapped source and at its wrapped destination; the feature rows read at the wrapped sources, scaled
  by that product and added into a zero array at the destinations; and the bias added to every row. Between the two
  convolutions sits a logistic spelt as a negation, an exponential, `1 + ·` and `1 ÷ ·`.

  First the result is cut into named stages, each the reference's own operations applied to the previous stage, so that the
  whole result is one short composition of them. Then each stage is read at an element: a scatter-add followed by the bias is
  the starting value plus the sum of the updates that land on the element plus the bias entry; an update is the gathered
  feature times the edge's scaling, the latter read through two broadcasts; a dense layer is a row against a column; the
  spelt-out logistic is the logistic function because the word of `1.0` denotes `1`. The index functions and landing sets
  of the reference's gathers and scatters are the specification's by definition, so the sums agree term by term: no law of
  sums or products is needed, and the only arithmetic is the evaluation of the word of `1.0`.
-/
import proofs.«181691_j22565758173932_2_alg».proof.Proof.RefRun
import proofs.«181691_j22565758173932_2_alg».proof.Proof.Spec
import proofs.«181691_j22565758173932_2_alg».proof.Proof.LibDot
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Idealize.SL.Sem

/-! ## The reference's result, cut into named stages

The stages below are the reference's own operations, in its own spelling, applied to the previous stage: the two edge lists, the
negative-index wrap, the column of start indices, the degree and its normalisation, the per-edge scaling, one propagation step over
64 and over 8 features, and the logistic. -/

section Raw

open Cert.ReferenceIdeal Cert.ReferenceIdeal.Gen

/-- The sources: row 0 of the edge array followed by `0 … 99999`. -/
def rawSrc (ei : IVec S2x3200000 32) : IVec S3300000 32 :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0
/-- The destinations: row 1 of the edge array followed by `0 … 99999`. -/
def rawDst (ei : IVec S2x3200000 32) : IVec S3300000 32 :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0
/-- A negative node number wrapped once. -/
def rawWrap (v : IVec S3300000 32) : IVec S3300000 32 :=
  select (cmpi .slt v (broadcastInDim S3300000 ![] bcast_S_S3300000 (constantI S_ 32 0#32))) (addi v (broadcastInDim S3300000 ![] bcast_S_S3300000 (constantI S_ 32 100000#32))) v
/-- A list of node numbers as a column of start indices. -/
def rawCol (v : IVec S3300000 32) : IVec S3300000x1 32 :=
  broadcastInDim S3300000x1 ![0] bcast_S3300000_S3300000x1_0 v
/-- The in-degree. -/
def rawDeg (ei : IVec S2x3200000 32) : FVec Ideal S100000 .f32 :=
  Host.scatterAdd scatter_S100000_S3300000x1_S3300000_n_0_0_1 (broadcastInDim S100000 ![] bcast_S_S100000 (constant (F := Ideal) S_ .f32 0x00000000#32)) (rawCol (rawDst ei)) (broadcastInDim S3300000 ![] bcast_S_S3300000 (constant (F := Ideal) S_ .f32 0x3F800000#32))
/-- The degree to the power `-1/2` where it is positive, zero elsewhere. -/
def rawDis (ei : IVec S2x3200000 32) : FVec Ideal S100000 .f32 :=
  select (cmpf (F := Ideal) .ogt (rawDeg ei) (broadcastInDim S100000 ![] bcast_S_S100000 (constant (F := Ideal) S_ .f32 0x00000000#32))) (Host.rsqrt (rawDeg ei)) (broadcastInDim S100000 ![] bcast_S_S100000 (id (constant (F := Ideal) S_ .f32 0x00000000#32)))
/-- The per-edge scaling. -/
def rawNorm (ei : IVec S2x3200000 32) : FVec Ideal S3300000 .f32 :=
  mulf (Host.gather gather_S100000_S3300000x1_S3300000_n_0_n_n_0_1_1 (rawDis ei) (rawCol (rawWrap (rawSrc ei)))) (Host.gather gather_S100000_S3300000x1_S3300000_n_0_n_n_0_1_1 (rawDis ei) (rawCol (rawWrap (rawDst ei))))
/-- One propagation step over 64 features. -/
def rawStep64 (ei : IVec S2x3200000 32) (H : FVec Ideal S100000x64 .f32) (b : FVec Ideal S64 .f32) : FVec Ideal S100000x64 .f32 :=
  addf (Host.scatterAdd scatter_S100000x64_S3300000x1_S3300000x64_1_0_0_1 (broadcastInDim S100000x64 ![] bcast_S_S100000x64 (constant (F := Ideal) S_ .f32 0x00000000#32)) (rawCol (rawDst ei)) (mulf (Host.gather gather_S100000x64_S3300000x1_S3300000x64_1_0_n_n_0_1_164 H (rawCol (rawWrap (rawSrc ei)))) (broadcastInDim S3300000x64 ![0, 1] bcast_S3300000x1_S3300000x64_0_1 (broadcastInDim S3300000x1 ![0] bcast_S3300000_S3300000x1_0 (rawNorm ei))))) (broadcastInDim S100000x64 ![0, 1] bcast_S1x64_S100000x64_0_1 (broadcastInDim S1x64 ![1] bcast_S64_S1x64_1 b))
/-- The logistic, spelt negate / exponential / `1 + ·` / `1 ÷ ·`. -/
def rawLogi (V : FVec Ideal S100000x64 .f32) : FVec Ideal S100000x64 .f32 :=
  Host.divf (broadcastInDim S100000x64 ![] bcast_S_S100000x64 (constant (F := Ideal) S_ .f32 0x3F800000#32)) (addf (broadcastInDim S100000x64 ![] bcast_S_S100000x64 (constant (F := Ideal) S_ .f32 0x3F800000#32)) (Host.exp (Host.negf V)))
/-- One propagation step over 8 features. -/
def rawStep8 (ei : IVec S2x3200000 32) (H : FVec Ideal S100000x8 .f32) (b : FVec Ideal S8 .f32) : FVec Ideal S100000x8 .f32 :=
  addf (Host.scatterAdd scatter_S100000x8_S3300000x1_S3300000x8_1_0_0_1 (broadcastInDim S100000x8 ![] bcast_S_S100000x8 (constant (F := Ideal) S_ .f32 0x00000000#32)) (rawCol (rawDst ei)) (mulf (Host.gather gather_S100000x8_S3300000x1_S3300000x8_1_0_n_n_0_1_18 H (rawCol (rawWrap (rawSrc ei)))) (broadcastInDim S3300000x8 ![0, 1] bcast_S3300000x1_S3300000x8_0_1 (broadcastInDim S3300000x1 ![0] bcast_S3300000_S3300000x1_0 (rawNorm ei))))) (broadcastInDim S100000x8 ![0, 1] bcast_S1x8_S100000x8_0_1 (broadcastInDim S1x8 ![1] bcast_S8_S1x8_1 b))

/-- The whole network: the second step of the second dense layer of the logistic of the first step of the first dense layer. -/
def rawOut (x : FVec Ideal S100000x128 .f32) (ei : IVec S2x3200000 32) (W1 : FVec Ideal S128x64 .f32) (b1 : FVec Ideal S64 .f32)
    (W2 : FVec Ideal S64x8 .f32) (b2 : FVec Ideal S8 .f32) : FVec Ideal S100000x8 .f32 :=
  rawStep8 ei (Host.dotGeneral dot_S100000x64_S64x8_S100000x8_1_0_0_1_n_n none (rawLogi (rawStep64 ei (Host.dotGeneral dot_S100000x128_S128x64_S100000x64_1_0_0_1_n_n none x W1) b1)) W2) b2

/-- The reference's result is that network of its six arguments. -/
theorem res_raw (m : (ℓ : Loc nD τ sig) → Buf (Elt Ideal) ℓ) (c : Dev nD) :
    Cert.ReferenceIdeal.RunP.res_main_v92 (F := Ideal) m c
      = rawOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Raw

section Bridge

open Cert.Spec

/-! ## Broadcasts read at an index -/

/-- A per-edge vector broadcast along the 8 feature columns reads the edge's entry. -/
theorem rowcast8 {α : Type} (v : ST.Idx → α) (h1 : ST.BroadcastsInDim STx1 (![0] : Fin 1 → Fin STx1.rank))
    (h2 : STx1.BroadcastsInDim STx8 (![0, 1] : Fin 2 → Fin STx8.rank)) (j : STx8.Idx) :
    broadcastInDim STx8 ![0, 1] h2 (broadcastInDim STx1 ![0] h1 v) j = v (ix1 (j 0)) := by
  unfold broadcastInDim
  exact congrArg v (funext fun a => by match a with | ⟨0, _⟩ => rfl)

theorem rowcast64 {α : Type} (v : ST.Idx → α) (h1 : ST.BroadcastsInDim STx1 (![0] : Fin 1 → Fin STx1.rank))
    (h2 : STx1.BroadcastsInDim STx64 (![0, 1] : Fin 2 → Fin STx64.rank)) (j : STx64.Idx) :
    broadcastInDim STx64 ![0, 1] h2 (broadcastInDim STx1 ![0] h1 v) j = v (ix1 (j 0)) := by
  unfold broadcastInDim
  exact congrArg v (funext fun a => by match a with | ⟨0, _⟩ => rfl)

/-- A bias row broadcast down the node rows reads the column's entry. -/
theorem biascast8 {α : Type} (b : S8.Idx → α) (h1 : S8.BroadcastsInDim ⟨2, ![1, 8]⟩ (![1] : Fin 1 → Fin 2))
    (h2 : (⟨2, ![1, 8]⟩ : Shape).BroadcastsInDim SNx8 (![0, 1] : Fin 2 → Fin SNx8.rank)) (p : Fin 100000) (q : Fin 8) :
    broadcastInDim SNx8 ![0, 1] h2 (broadcastInDim ⟨2, ![1, 8]⟩ ![1] h1 b) (ix2 p q) = b (ix1 q) := by
  unfold broadcastInDim
  exact congrArg b (funext fun a => by match a with | ⟨0, _⟩ => rfl)

theorem biascast64 {α : Type} (b : S64.Idx → α) (h1 : S64.BroadcastsInDim ⟨2, ![1, 64]⟩ (![1] : Fin 1 → Fin 2))
    (h2 : (⟨2, ![1, 64]⟩ : Shape).BroadcastsInDim SNx64 (![0, 1] : Fin 2 → Fin SNx64.rank)) (p : Fin 100000) (q : Fin 64) :
    broadcastInDim SNx64 ![0, 1] h2 (broadcastInDim ⟨2, ![1, 64]⟩ ![1] h1 b) (ix2 p q) = b (ix1 q) := by
  unfold broadcastInDim
  exact congrArg b (funext fun a => by match a with | ⟨0, _⟩ => rfl)

/-! ## The shape of one step's element: generic in the operands -/

/-- A sum with a starting value and a trailing term, compared piece by piece. -/
theorem sumShape {ι : Type} (s s' : Finset ι) (z z' : EReal) (f g : ι → EReal) (y y' : EReal) (hs : s = s') (hz : z = z')
    (h : ∀ j ∈ s', f j = g j) (hy : y = y') : (z + ∑ j ∈ s, f j) + y = (z' + ∑ j ∈ s', g j) + y' := by
  subst hs hz hy
  rw [Finset.sum_congr rfl h]

/-- A splat constant broadcast from the scalar shape reads the constant's value. -/
theorem splat_apply {s : Shape} (w : BitVec 32) (h : S_.BroadcastsInDim s (![] : Fin 0 → Fin s.rank)) (i : s.Idx) :
    broadcastInDim s ![] h (constant (F := Ideal) S_ .f32 w) i = Ideal.ofBits .f32 w := rfl

/-- The per-edge scaling at an edge. -/
theorem normShape (d : FVec Ideal SN .f32) (a b : IVec STx1 32) (e : ST.Idx) :
    mulf (Host.gather gath1 d a) (Host.gather gath1 d b) e = d (gath1.operandIdx e a) * d (gath1.operandIdx e b) := rfl

/-! ## One propagation step -/

/-- The per-edge scaling: the normalisation at the edge's wrapped source times the one at its wrapped destination. -/
def norm (ei : IVec S2xE 32) : FVec Ideal ST .f32 :=
  mulf (Host.gather gath1 (dis ei) (col (wrap (src ei)))) (Host.gather gath1 (dis ei) (col (wrap (dst ei))))

/-- Scatter-add into an array plus a second array, at an element. -/
theorem addScat8 (x : FVec Ideal SNx8 .f32) (idx : IVec STx1 32) (upd : FVec Ideal STx8 .f32) (Y : FVec Ideal SNx8 .f32) (i : SNx8.Idx) :
    addf (Host.scatterAdd scat8 x idx upd) Y i
      = (x i + ∑ j ∈ Finset.univ.filter (fun j => scat8.resultIdx? j idx = some i), upd j) + Y i := rfl

/-- The edges that land on an element, in the specification's words. -/
theorem landing8 (ei : IVec S2xE 32) (i : SNx8.Idx) :
    Finset.univ.filter (fun j => scat8.resultIdx? j (col (dst ei)) = some i) = Finset.univ.filter (fun j => to8 ei j = some i) := rfl

/-- One update of the scatter: the gathered feature times the edge's scaling. -/
theorem updShape8 (H : FVec Ideal SNx8 .f32) (idx : IVec STx1 32) (v : FVec Ideal ST .f32)
    (h1 : ST.BroadcastsInDim STx1 (![0] : Fin 1 → Fin STx1.rank)) (h2 : STx1.BroadcastsInDim STx8 (![0, 1] : Fin 2 → Fin STx8.rank))
    (j : STx8.Idx) :
    mulf (Host.gather gath8 H idx) (broadcastInDim STx8 ![0, 1] h2 (broadcastInDim STx1 ![0] h1 v)) j
      = H (ix2 (gath8.operandIdx j idx 0) (gath8.operandIdx j idx 1)) * v (ix1 (j 0)) := by
  refine (mulf_apply _ _ _).trans ?_
  exact congrArg₂ (· * ·) (congrArg H (eq_ix2 (gath8.operandIdx j idx))) (rowcast8 v h1 h2 j)

/-- Scatter-add into an array plus a second array, at an element. -/
theorem addScat64 (x : FVec Ideal SNx64 .f32) (idx : IVec STx1 32) (upd : FVec Ideal STx64 .f32) (Y : FVec Ideal SNx64 .f32) (i : SNx64.Idx) :
    addf (Host.scatterAdd scat64 x idx upd) Y i
      = (x i + ∑ j ∈ Finset.univ.filter (fun j => scat64.resultIdx? j idx = some i), upd j) + Y i := rfl

/-- The edges that land on an element, in the specification's words. -/
theorem landing64 (ei : IVec S2xE 32) (i : SNx64.Idx) :
    Finset.univ.filter (fun j => scat64.resultIdx? j (col (dst ei)) = some i) = Finset.univ.filter (fun j => to64 ei j = some i) := rfl

/-- One update of the scatter: the gathered feature times the edge's scaling. -/
theorem updShape64 (H : FVec Ideal SNx64 .f32) (idx : IVec STx1 32) (v : FVec Ideal ST .f32)
    (h1 : ST.BroadcastsInDim STx1 (![0] : Fin 1 → Fin STx1.rank)) (h2 : STx1.BroadcastsInDim STx64 (![0, 1] : Fin 2 → Fin STx64.rank))
    (j : STx64.Idx) :
    mulf (Host.gather gath64 H idx) (broadcastInDim STx64 ![0, 1] h2 (broadcastInDim STx1 ![0] h1 v)) j
      = H (ix2 (gath64.operandIdx j idx 0) (gath64.operandIdx j idx 1)) * v (ix1 (j 0)) := by
  refine (mulf_apply _ _ _).trans ?_
  exact congrArg₂ (· * ·) (congrArg H (eq_ix2 (gath64.operandIdx j idx))) (rowcast64 v h1 h2 j)

/-- One propagation step over `[100000, 8]` features, as whole-array operations: the feature rows gathered at the wrapped
    sources, scaled per edge, added into a zero array at the destinations, and the bias added to every row. -/
def step8 (ei : IVec S2xE 32) (H : FVec Ideal SNx8 .f32) (b : FVec Ideal S8 .f32) : FVec Ideal SNx8 .f32 :=
  addf (Host.scatterAdd scat8 (broadcastInDim SNx8 ![] (by decide) (constant (F := Ideal) S_ .f32 0x00000000#32)) (col (dst ei))
      (mulf (Host.gather gath8 H (col (wrap (src ei))))
        (broadcastInDim STx8 ![0, 1] (by decide) (broadcastInDim STx1 ![0] (by decide) (norm ei)))))
    (broadcastInDim SNx8 ![0, 1] (by decide) (broadcastInDim (⟨2, ![1, 8]⟩ : Shape) ![1] (by decide) b))

/-- The step at one element is the per-edge sum of the specification. -/
theorem step8_apply (ei : IVec S2xE 32) (H : FVec Ideal SNx8 .f32) (b : FVec Ideal S8 .f32) (p : Fin 100000) (q : Fin 8) :
    step8 ei H b (ix2 p q) = edge8 ei (fun p q => H (ix2 p q)) b p q := by
  unfold step8 edge8
  refine (addScat8 _ _ _ _ _).trans ?_
  refine sumShape _ _ _ _ _ _ _ _ (landing8 ei (ix2 p q)) (splat_apply _ _ _) (fun j _ => ?_) (biascast8 b _ _ p q)
  refine (updShape8 H _ (norm ei) _ _ j).trans ?_
  exact congrArg (fun t => H (ix2 (from8 ei j 0) (from8 ei j 1)) * t) (normShape (dis ei) _ _ _)

/-- One propagation step over `[100000, 64]` features, as whole-array operations: the feature rows gathered at the wrapped
    sources, scaled per edge, added into a zero array at the destinations, and the bias added to every row. -/
def step64 (ei : IVec S2xE 32) (H : FVec Ideal SNx64 .f32) (b : FVec Ideal S64 .f32) : FVec Ideal SNx64 .f32 :=
  addf (Host.scatterAdd scat64 (broadcastInDim SNx64 ![] (by decide) (constant (F := Ideal) S_ .f32 0x00000000#32)) (col (dst ei))
      (mulf (Host.gather gath64 H (col (wrap (src ei))))
        (broadcastInDim STx64 ![0, 1] (by decide) (broadcastInDim STx1 ![0] (by decide) (norm ei)))))
    (broadcastInDim SNx64 ![0, 1] (by decide) (broadcastInDim (⟨2, ![1, 64]⟩ : Shape) ![1] (by decide) b))

/-- The step at one element is the per-edge sum of the specification. -/
theorem step64_apply (ei : IVec S2xE 32) (H : FVec Ideal SNx64 .f32) (b : FVec Ideal S64 .f32) (p : Fin 100000) (q : Fin 64) :
    step64 ei H b (ix2 p q) = edge64 ei (fun p q => H (ix2 p q)) b p q := by
  unfold step64 edge64
  refine (addScat64 _ _ _ _ _).trans ?_
  refine sumShape _ _ _ _ _ _ _ _ (landing64 ei (ix2 p q)) (splat_apply _ _ _) (fun j _ => ?_) (biascast64 b _ _ p q)
  refine (updShape64 H _ (norm ei) _ _ j).trans ?_
  exact congrArg (fun t => H (ix2 (from64 ei j 0) (from64 ei j 1)) * t) (normShape (dis ei) _ _ _)

/-! ## The logistic and the dense layers at an element -/

/-- The word of `1.0` denotes `1`. -/
theorem ofBits_one : Ideal.ofBits .f32 0x3F800000#32 = 1 := by
  simp [Ideal.ofBits, Ideal.ieee, -EReal.coe_mul]; norm_num

/-- The logistic spelt as a negation, an exponential, `1 + ·` and `1 ÷ ·`. -/
def logi (V : FVec Ideal SNx64 .f32) : FVec Ideal SNx64 .f32 :=
  Host.divf (broadcastInDim SNx64 ![] (by decide) (constant (F := Ideal) S_ .f32 0x3F800000#32))
    (addf (broadcastInDim SNx64 ![] (by decide) (constant (F := Ideal) S_ .f32 0x3F800000#32)) (Host.exp (Host.negf V)))

theorem logiShape (V : FVec Ideal SNx64 .f32) (i : SNx64.Idx) :
    logi V i = Ideal.div (Ideal.ofBits .f32 0x3F800000#32) (Ideal.ofBits .f32 0x3F800000#32 + Ideal.exp (-(V i))) := rfl

/-- That spelling is the logistic function. -/
theorem logi_apply (V : FVec Ideal SNx64 .f32) (i : SNx64.Idx) : logi V i = Ideal.logistic (V i) := by
  rw [logiShape, ofBits_one]; rfl

/-- The first dense layer at an element: a row of the features against a column of the weights. -/
theorem dot1_apply (x : FVec Ideal SNx128 .f32) (W : FVec Ideal S128x64 .f32) (p : Fin 100000) (q : Fin 64) :
    Host.dotGeneral Cert.ReferenceIdeal.dot_S100000x128_S128x64_S100000x64_1_0_0_1_n_n none x W (ix2 p q)
      = lin (fun p k => x (ix2 p k)) W p q :=
  Cert.LibDot.dotGeneral_apply Cert.ReferenceIdeal.dot_S100000x128_S128x64_S100000x64_1_0_0_1_n_n rfl rfl
    (fun _ _ => rfl) (fun _ _ => rfl) (fun _ _ => rfl) (fun _ _ => rfl) none .single x W p q

/-- The second dense layer at an element. -/
theorem dot2_apply (A : FVec Ideal SNx64 .f32) (W : FVec Ideal S64x8 .f32) (p : Fin 100000) (q : Fin 8) :
    Host.dotGeneral Cert.ReferenceIdeal.dot_S100000x64_S64x8_S100000x8_1_0_0_1_n_n none A W (ix2 p q)
      = lin (fun p k => A (ix2 p k)) W p q :=
  Cert.LibDot.dotGeneral_apply Cert.ReferenceIdeal.dot_S100000x64_S64x8_S100000x8_1_0_0_1_n_n rfl rfl
    (fun _ _ => rfl) (fun _ _ => rfl) (fun _ _ => rfl) (fun _ _ => rfl) none .single A W p q

/-! ## The reference's stages are the specification's -/

theorem rawSrc_eq (ei : IVec S2xE 32) : rawSrc ei = src ei := rfl
theorem rawDst_eq (ei : IVec S2xE 32) : rawDst ei = dst ei := rfl
theorem rawWrap_eq (v : IVec ST 32) : rawWrap v = wrap v := rfl
theorem rawCol_eq (v : IVec ST 32) : rawCol v = col v := rfl
theorem rawDis_eq (ei : IVec S2xE 32) : rawDis ei = dis ei := rfl
theorem rawNorm_eq (ei : IVec S2xE 32) : rawNorm ei = norm ei := rfl
theorem rawStep64_eq (ei : IVec S2xE 32) (H : FVec Ideal SNx64 .f32) (b : FVec Ideal S64 .f32) : rawStep64 ei H b = step64 ei H b := rfl
theorem rawLogi_eq (V : FVec Ideal SNx64 .f32) : rawLogi V = logi V := rfl
theorem rawStep8_eq (ei : IVec S2xE 32) (H : FVec Ideal SNx8 .f32) (b : FVec Ideal S8 .f32) : rawStep8 ei H b = step8 ei H b := rfl

/-! ## The reference computes the specification -/

/-- The specification's network at an element. -/
theorem outEdge_apply (x : SNx128.Idx → EReal) (ei : IVec S2xE 32) (W1 : S128x64.Idx → EReal) (b1 : S64.Idx → EReal)
    (W2 : S64x8.Idx → EReal) (b2 : S8.Idx → EReal) (p : Fin 100000) (q : Fin 8) :
    outEdge x ei W1 b1 W2 b2 (ix2 p q)
      = edge8 ei (lin (fun p k => Ideal.logistic (edge64 ei (lin (fun p k => x (ix2 p k)) W1) b1 p k)) W2) b2 p q := rfl

/-- Stage by stage, from the outside in: the second step is the per-edge sum over the second dense layer, whose rows are the
    logistic of the first step, which is the per-edge sum over the first dense layer. -/
theorem rawOut_eq (x : FVec Ideal SNx128 .f32) (ei : IVec S2xE 32) (W1 : FVec Ideal S128x64 .f32) (b1 : FVec Ideal S64 .f32)
    (W2 : FVec Ideal S64x8 .f32) (b2 : FVec Ideal S8 .f32) : rawOut x ei W1 b1 W2 b2 = outEdge x ei W1 b1 W2 b2 := by
  funext i
  obtain ⟨p, q, rfl⟩ : ∃ (p : Fin 100000) (q : Fin 8), i = ix2 p q := ⟨i 0, i 1, eq_ix2 i⟩
  unfold rawOut
  refine (congrFun (rawStep8_eq ei _ b2) (ix2 p q)).trans ?_
  refine (step8_apply ei _ b2 p q).trans ?_
  refine Eq.trans ?_ (outEdge_apply x ei W1 b1 W2 b2 p q).symm
  refine congrArg (fun H => edge8 ei H b2 p q) ?_
  funext p' q'
  refine (dot2_apply _ W2 p' q').trans ?_
  refine congrArg (fun A => lin A W2 p' q') ?_
  funext p'' k
  refine (congrFun (rawLogi_eq _) (ix2 p'' k)).trans ?_
  refine (logi_apply _ _).trans ?_
  refine congrArg Ideal.logistic ?_
  refine (congrFun (rawStep64_eq ei _ b1) (ix2 p'' k)).trans ?_
  refine (step64_apply ei _ b1 p'' k).trans ?_
  refine congrArg (fun H => edge64 ei H b1 p'' k) ?_
  funext a b
  exact dot1_apply x W1 a b

end Bridge

/-- The reference's result, on the extended reals, is the specification's network of its six arguments. -/
theorem res_eq (m : (ℓ : Loc nD τ sig) → Buf (Elt Ideal) ℓ) (c : Dev nD) :
    Cert.ReferenceIdeal.RunP.res_main_v92 (F := Ideal) m c
      = Cert.Spec.outEdge (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (res_raw m c).trans (rawOut_eq _ _ _ _ _ _)

end Cert.ReferenceIdeal.RefValue

end
-- ==== Proof.lean ====
/-
  The certificate: the two programs agree on the extended reals.

  Both compute a two-layer graph convolution over 100000 nodes: a dense layer, a propagation step along the edges
  (every node's self loop appended) normalised by the in-degrees, a logistic, a second dense layer and a second
  propagation step (Proof/Spec.lean writes the function once). They differ in WHERE the normalisation
  `dis = deg ^ (-1/2)` is applied: the reference multiplies each edge's message by `dis (source) · dis (destination)`
  before adding the messages up at the destination; the kernel scales the rows by `dis` before the edge sum and the
  sums by `dis` after it. The two agree because a sum of extended reals may be multiplied through by a NON-NEGATIVE
  REAL factor (Proof/EdgeLaw.lean: `dis` is one — a positive degree's inverse root, or zero — whatever the inputs),
  and because an edge that lands on node `p` has destination `p`, so its destination factor is `dis p`. The narrow
  float format of the kernel's matrix products is the identity on the extended reals, a matrix product into a zero
  accumulator is the host's `dot_general`, and the kernel's logistic is the reference's `1 / (1 + e^(-x))`.

  The kernel program's result array is read off its run region by region (Proof/KernelRun.lean,
  Proof/KernelValue.lean, Proof/Region0.lean … Region2.lean), the reference's off the run of its host operations
  (Proof/RefRun.lean, Proof/RefValue.lean). No rewrite was applied when the kernel was idealized, so `preserves` has
  nothing to state; the frames are the programs' runs with the results forgotten.
-/
import proofs.«181691_j22565758173932_2_alg».proof.Defs
import proofs.«181691_j22565758173932_2_alg».proof.Proof.Gen.Kernel
import proofs.«181691_j22565758173932_2_alg».proof.Proof.Gen.Kernel.Frame
import proofs.«181691_j22565758173932_2_alg».proof.Proof.Gen.KernelIdeal
import proofs.«181691_j22565758173932_2_alg».proof.Proof.Gen.KernelIdeal.Frame
import proofs.«181691_j22565758173932_2_alg».proof.Proof.Gen.ReferenceIdeal
import proofs.«181691_j22565758173932_2_alg».proof.Proof.Gen.Pre_finite_inputs
import proofs.«181691_j22565758173932_2_alg».proof.Proof.Spec
import proofs.«181691_j22565758173932_2_alg».proof.Proof.EdgeLaw
import proofs.«181691_j22565758173932_2_alg».proof.Proof.KernelRun
import proofs.«181691_j22565758173932_2_alg».proof.Proof.KernelValue
import proofs.«181691_j22565758173932_2_alg».proof.Proof.RefRun
import proofs.«181691_j22565758173932_2_alg».proof.Proof.RefValue
import Idealize.ShloMosaic.Adequacy
import Idealize.ShloMosaic.Init

noncomputable section

namespace Cert.Spec

open Idealize.ShloMosaic Idealize.ShloMosaic.ValueIdx

/-- The network with the normalisation applied per edge is the network with it applied per node. -/
theorem outEdge_eq (x : SNx128.Idx → EReal) (ei : IVec S2xE 32) (W1 : S128x64.Idx → EReal) (b1 : S64.Idx → EReal)
    (W2 : S64x8.Idx → EReal) (b2 : S8.Idx → EReal) : outEdge x ei W1 b1 W2 b2 = out x ei W1 b1 W2 b2 := by
  funext i
  obtain ⟨p, q, rfl⟩ : ∃ (p : Fin 100000) (q : Fin 8), i = ix2 p q := ⟨i 0, i 1, eq_ix2 i⟩
  show edge8 ei (lin (fun p k => Ideal.logistic (edge64 ei (lin (fun p k => x (ix2 p k)) W1) b1 p k)) W2) b2 p q
      = prop8 ei (lin (fun p k => Ideal.logistic (prop64 ei (lin (fun p k => x (ix2 p k)) W1) b1 p k)) W2) b2 p q
  rw [edge8_eq]
  simp only [edge64_eq]

end Cert.Spec

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- Both runs end with the result array at the specification's network of the (agreeing) arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.value m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.RefValue.res_eq, Cert.Spec.outEdge_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
